-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16384x256 : Shape := ⟨3, ![16, 16384, 256]⟩
abbrev S16x16384x4 : Shape := ⟨3, ![16, 16384, 4]⟩
abbrev S_ : Shape := ⟨0, ![]⟩

class Facts : Prop where
  bcast_S_S16x16384x256 : S_.BroadcastsInDim S16x16384x256 (![] : Fin 0 → Fin S16x16384x256.rank)
  reducesTo_S16x16384x256_S_d0_1_2 : S16x16384x256.ReducesTo [0, 1, 2] S_
  h_S_ : 0 < S_.numel
  bcast_S_S16x16384x4 : S_.BroadcastsInDim S16x16384x4 (![] : Fin 0 → Fin S16x16384x4.rank)
  reducesTo_S16x16384x4_S_d0_1_2 : S16x16384x4.ReducesTo [0, 1, 2] S_

variable [Facts]

def fn {F : FTy → Type} [FloatOps F] (main_arg0 : FVec F S16x16384x256 .f32) (main_arg1 : FVec F S16x16384x4 .f32) : IVec S_ 1 :=
  let main_v0 : FVec F S16x16384x256 .f32 := Host.absf main_arg0
  let main_cst : FVec F S_ .f32 := constant S_ .f32 0x7F800000#32
  let main_v1 : FVec F S16x16384x256 .f32 := broadcastInDim S16x16384x256 ![] bcast_S_S16x16384x256 main_cst
  let main_v2 : IVec S16x16384x256 1 := cmpf .olt main_v0 main_v1
  let main_c : IVec S_ 1 := constantI S_ 1 1#1
  let main_v3 : IVec S_ 1 := (fun x v => Host.reduce IntOp.andi x v reducesTo_S16x16384x256_S_d0_1_2 h_S_) main_v2 main_c
  let main_v4 : FVec F S16x16384x4 .f32 := Host.absf main_arg1
  let main_cst_0 : FVec F S_ .f32 := constant S_ .f32 0x7F800000#32
  let main_v5 : FVec F S16x16384x4 .f32 := broadcastInDim S16x16384x4 ![] bcast_S_S16x16384x4 main_cst_0
  let main_v6 : IVec S16x16384x4 1 := cmpf .olt main_v4 main_v5
  let main_c_1 : IVec S_ 1 := constantI S_ 1 1#1
  let main_v7 : IVec S_ 1 := (fun x v => Host.reduce IntOp.andi x v reducesTo_S16x16384x4_S_d0_1_2 h_S_) main_v6 main_c_1
  let main_v8 : IVec S_ 1 := andi main_v3 main_v7
  main_v8
-- ==== Kernel.lean ====
abbrev S16x16384x256 : Shape := ⟨3, ![16, 16384, 256]⟩
abbrev S16x16384x4 : Shape := ⟨3, ![16, 16384, 4]⟩
abbrev S16x256x256 : Shape := ⟨3, ![16, 256, 256]⟩
abbrev S16x256x4 : Shape := ⟨3, ![16, 256, 4]⟩
abbrev S16x4x4 : Shape := ⟨3, ![16, 4, 4]⟩
abbrev S1x4096x256 : Shape := ⟨3, ![1, 4096, 256]⟩
abbrev S1x4096x4 : Shape := ⟨3, ![1, 4096, 4]⟩
abbrev S1x256x256 : Shape := ⟨3, ![1, 256, 256]⟩
abbrev S1x256x4 : Shape := ⟨3, ![1, 256, 4]⟩
abbrev S1x4x4 : Shape := ⟨3, ![1, 4, 4]⟩
abbrev S256x256 : Shape := ⟨2, ![256, 256]⟩
abbrev S256x4 : Shape := ⟨2, ![256, 4]⟩
abbrev S4x4 : Shape := ⟨2, ![4, 4]⟩
abbrev S4096x256 : Shape := ⟨2, ![4096, 256]⟩
abbrev S4096 : Shape := ⟨1, ![4096]⟩
abbrev S4096x1 : Shape := ⟨2, ![4096, 1]⟩
abbrev S4096x4 : Shape := ⟨2, ![4096, 4]⟩
abbrev S_ : Shape := ⟨0, ![]⟩
abbrev S16 : Shape := ⟨1, ![16]⟩

abbrev nBuf : Space → Nat
  | .hbm => 26
  | .vmem => 10
  | .smem => 0
  | _ => 0

abbrev bufTy : (tb : Table) → Fin (tcTables nBuf tb) → BufTy
  | .hbm, ⟨0, _⟩ => ⟨S16x16384x256, .f32⟩
  | .hbm, ⟨1, _⟩ => ⟨S16x16384x4, .f32⟩
  | .hbm, ⟨2, _⟩ => ⟨S16x256x256, .f32⟩
  | .hbm, ⟨3, _⟩ => ⟨S16x256x4, .f32⟩
  | .hbm, ⟨4, _⟩ => ⟨S16x4x4, .f32⟩
  | .hbm, ⟨5, _⟩ => ⟨S16x256x256, .f32⟩
  | .hbm, ⟨6, _⟩ => ⟨S_, .f32⟩
  | .hbm, ⟨7, _⟩ => ⟨S16, .f32⟩
  | .hbm, ⟨8, _⟩ => ⟨S16x256x4, .f32⟩
  | .hbm, ⟨9, _⟩ => ⟨S_, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S16x4x4, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S1x4096x256, .f32⟩
  | .local _ .vmem, ⟨1, _⟩ => ⟨S1x4096x256, .f32⟩
  | .local _ .vmem, ⟨2, _⟩ => ⟨S1x4096x4, .f32⟩
  | .local _ .vmem, ⟨3, _⟩ => ⟨S1x4096x4, .f32⟩
  | .local _ .vmem, ⟨4, _⟩ => ⟨S1x256x256, .f32⟩
  | .local _ .vmem, ⟨5, _⟩ => ⟨S1x256x256, .f32⟩
  | .local _ .vmem, ⟨6, _⟩ => ⟨S1x256x4, .f32⟩
  | .local _ .vmem, ⟨7, _⟩ => ⟨S1x256x4, .f32⟩
  | .local _ .vmem, ⟨8, _⟩ => ⟨S1x4x4, .f32⟩
  | .local _ .vmem, ⟨9, _⟩ => ⟨S1x4x4, .f32⟩
  | _, _ => ⟨S16x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1x256x4_S1x256x4_0_0_0 : ∀ a, (![0, 0, 0] : Fin 3 → Nat) a + S1x256x4.size a ≤ S1x256x4.size a
  h_S1x256x4 : 0 < S1x256x4.numel
  shapeCasts_S1x256x4_S256x4 : S1x256x4.ShapeCasts S256x4
  shapeCasts_S256x4_S1x256x4 : S256x4.ShapeCasts S1x256x4
  inb_S1x4x4_S1x4x4_0_0_0 : ∀ a, (![0, 0, 0] : Fin 3 → Nat) a + S1x4x4.size a ≤ S1x4x4.size a
  h_S1x4x4 : 0 < S1x4x4.numel
  shapeCasts_S1x4x4_S4x4 : S1x4x4.ShapeCasts S4x4
  shapeCasts_S4x4_S1x4x4 : S4x4.ShapeCasts S1x4x4
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  reduces_S4096x256_S4096 : S4096x256.Reduces [1] S4096
  shapeCasts_S4096_S4096x1 : S4096.ShapeCasts S4096x1
  broadcasts_S4096x1_S4096x256 : S4096x1.Broadcasts S4096x256
  inb_S1x4096x4_S1x4096x4_0_0_0 : ∀ a, (![0, 0, 0] : Fin 3 → Nat) a + S1x4096x4.size a ≤ S1x4096x4.size a
  h_S1x4096x4 : 0 < S1x4096x4.numel
  shapeCasts_S1x4096x4_S4096x4 : S1x4096x4.ShapeCasts S4096x4
  bitsLt_bf16_f32 : FTy.bits .bf16 < FTy.bits .f32
  reducesTo_S16x256x256_S16_d1_2 : S16x256x256.ReducesTo [1, 2] S16
  h_S_ : 0 < S_.numel
  reducesTo_S16x256x4_S16_d1_2 : S16x256x4.ReducesTo [1, 2] S16
  bcast_S_S16 : S_.BroadcastsInDim S16 (![] : Fin 0 → Fin S16.rank)
  reducesTo_S16x4x4_S16_d1_2 : S16x4x4.ReducesTo [1, 2] S16
  reducesTo_S16_S_d0 : S16.ReducesTo [0] S_
  dot_S4096x256_S4096x256_S256x256_0_0_1_1_n_n_wf : DotDims.WF S4096x256 S4096x256 S256x256 [0] [0] [1] [1] [] []
  dot_S4096x256_S4096x4_S256x4_0_0_1_1_n_n_wf : DotDims.WF S4096x256 S4096x4 S256x4 [0] [0] [1] [1] [] []
  dot_S4096x4_S4096x4_S4x4_0_0_1_1_n_n_wf : DotDims.WF S4096x4 S4096x4 S4x4 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S16x16384x256.size a
  hwx0_0 : ∀ i : grid0.Coords, EltTy.bits .f32 = 32 ∨ (Rect.block (s := S16x16384x256) S1x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x4.size a ≤ S16x16384x4.size a
  hwx0_1 : ∀ i : grid0.Coords, EltTy.bits .f32 = 32 ∨ (Rect.block (s := S16x16384x4) S1x4096x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S16x256x256.size a
  hwx0_2 : ∀ i : grid0.Coords, EltTy.bits .f32 = 32 ∨ (Rect.block (s := S16x256x256) S1x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4.size a ≤ S16x256x4.size a
  hwx0_3 : ∀ i : grid0.Coords, EltTy.bits .f32 = 32 ∨ (Rect.block (s := S16x256x4) S1x256x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4x4.size a ≤ S16x4x4.size a
  hwx0_4 : ∀ i : grid0.Coords, EltTy.bits .f32 = 32 ∨ (Rect.block (s := S16x4x4) S1x4x4.size (cc0_transform_4 i) (hinb0_4 i)).WholeWords (EltTy.packing .f32)

variable [Facts₀]

def dot_S4096x256_S4096x256_S256x256_0_0_1_1_n_n : DotDims S4096x256 S4096x256 S256x256 where
  lhsContracting := [0]
  rhsContracting := [0]
  lhsNonContracting := [1]
  rhsNonContracting := [1]
  lhsBatch := []
  rhsBatch := []
  wf := dot_S4096x256_S4096x256_S256x256_0_0_1_1_n_n_wf
def dot_S4096x256_S4096x4_S256x4_0_0_1_1_n_n : DotDims S4096x256 S4096x4 S256x4 where
  lhsContracting := [0]
  rhsContracting := [0]
  lhsNonContracting := [1]
  rhsNonContracting := [1]
  lhsBatch := []
  rhsBatch := []
  wf := dot_S4096x256_S4096x4_S256x4_0_0_1_1_n_n_wf
def dot_S4096x4_S4096x4_S4x4_0_0_1_1_n_n : DotDims S4096x4 S4096x4 S4x4 where
  lhsContracting := [0]
  rhsContracting := [0]
  lhsNonContracting := [1]
  rhsNonContracting := [1]
  lhsBatch := []
  rhsBatch := []
  wf := dot_S4096x4_S4096x4_S4x4_0_0_1_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x256x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x256x4.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x4x4.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x16384x256 : Shape := ⟨3, ![16, 16384, 256]⟩
abbrev S16x16384x4 : Shape := ⟨3, ![16, 16384, 4]⟩
abbrev S_ : Shape := ⟨0, ![]⟩
abbrev S16x16384 : Shape := ⟨2, ![16, 16384]⟩
abbrev S16x16384x1 : Shape := ⟨3, ![16, 16384, 1]⟩
abbrev S16x256x256 : Shape := ⟨3, ![16, 256, 256]⟩
abbrev S16x256x4 : Shape := ⟨3, ![16, 256, 4]⟩
abbrev S16x4x4 : Shape := ⟨3, ![16, 4, 4]⟩
abbrev S16 : Shape := ⟨1, ![16]⟩

abbrev nBuf : Space → Nat
  | .hbm => 36
  | .vmem => 0
  | .smem => 0
  | _ => 0

abbrev bufTy : (tb : Table) → Fin (tcTables nBuf tb) → BufTy
  | .hbm, ⟨0, _⟩ => ⟨S16x16384x256, .f32⟩
  | .hbm, ⟨1, _⟩ => ⟨S16x16384x4, .f32⟩
  | .hbm, ⟨2, _⟩ => ⟨S16x16384x256, .f32⟩
  | .hbm, ⟨3, _⟩ => ⟨S_, .f32⟩
  | .hbm, ⟨4, _⟩ => ⟨S16x16384, .f32⟩
  | .hbm, ⟨5, _⟩ => ⟨S16x16384x1, .f32⟩
  | .hbm, ⟨6, _⟩ => ⟨S16x16384x1, .f32⟩
  | .hbm, ⟨7, _⟩ => ⟨S_, .f32⟩
  | .hbm, ⟨8, _⟩ => ⟨S16x16384x1, .f32⟩
  | .hbm, ⟨9, _⟩ => ⟨S16x16384x1, .f32⟩
  | .hbm, ⟨10, _⟩ => ⟨S16x16384x256, .f32⟩
  | .hbm, ⟨11, _⟩ => ⟨S16x16384x256, .f32⟩
  | .hbm, ⟨12, _⟩ => ⟨S16x256x256, .f32⟩
  | .hbm, ⟨13, _⟩ => ⟨S16x256x4, .f32⟩
  | .hbm, ⟨14, _⟩ => ⟨S16x4x4, .f32⟩
  | .hbm, ⟨15, _⟩ => ⟨S16x256x256, .f32⟩
  | .hbm, ⟨16, _⟩ => ⟨S_, .f32⟩
  | .hbm, ⟨17, _⟩ => ⟨S16, .f32⟩
  | .hbm, ⟨18, _⟩ => ⟨S16x256x4, .f32⟩
  | .hbm, ⟨19, _⟩ => ⟨S_, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S16, .f32⟩
  | .hbm, ⟨25, _⟩ => ⟨S16x4x4, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S16x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩

abbrev nD : Nat := 1
abbrev τ : Topo := Topo.v7x

variable {F : FTy → Type} [FloatOps F]

class Facts₀ : Prop where
  reducesTo_S16x16384x256_S16x16384_d2 : S16x16384x256.ReducesTo [2] S16x16384
  h_S_ : 0 < S_.numel
  bcast_S16x16384_S16x16384x1_0_1 : S16x16384.BroadcastsInDim S16x16384x1 (![0, 1] : Fin 2 → Fin S16x16384x1.rank)
  bcast_S_S16x16384x1 : S_.BroadcastsInDim S16x16384x1 (![] : Fin 0 → Fin S16x16384x1.rank)
  bcast_S16x16384x1_S16x16384x256_0_1_2 : S16x16384x1.BroadcastsInDim S16x16384x256 (![0, 1, 2] : Fin 3 → Fin S16x16384x256.rank)
  reducesTo_S16x256x256_S16_d1_2 : S16x256x256.ReducesTo [1, 2] S16
  reducesTo_S16x256x4_S16_d1_2 : S16x256x4.ReducesTo [1, 2] S16
  bcast_S_S16 : S_.BroadcastsInDim S16 (![] : Fin 0 → Fin S16.rank)
  reducesTo_S16x4x4_S16_d1_2 : S16x4x4.ReducesTo [1, 2] S16
  reducesTo_S16_S_d0 : S16.ReducesTo [0] S_
  dot_S16x16384x256_S16x16384x256_S16x256x256_1_1_2_2_0_0_wf : DotDims.WF S16x16384x256 S16x16384x256 S16x256x256 [1] [1] [2] [2] [0] [0]
  dot_S16x16384x256_S16x16384x4_S16x256x4_1_1_2_2_0_0_wf : DotDims.WF S16x16384x256 S16x16384x4 S16x256x4 [1] [1] [2] [2] [0] [0]
  dot_S16x16384x4_S16x16384x4_S16x4x4_1_1_2_2_0_0_wf : DotDims.WF S16x16384x4 S16x16384x4 S16x4x4 [1] [1] [2] [2] [0] [0]

variable [Facts₀]

def dot_S16x16384x256_S16x16384x256_S16x256x256_1_1_2_2_0_0 : DotDims S16x16384x256 S16x16384x256 S16x256x256 where
  lhsContracting := [1]
  rhsContracting := [1]
  lhsNonContracting := [2]
  rhsNonContracting := [2]
  lhsBatch := [0]
  rhsBatch := [0]
  wf := dot_S16x16384x256_S16x16384x256_S16x256x256_1_1_2_2_0_0_wf
def dot_S16x16384x256_S16x16384x4_S16x256x4_1_1_2_2_0_0 : DotDims S16x16384x256 S16x16384x4 S16x256x4 where
  lhsContracting := [1]
  rhsContracting := [1]
  lhsNonContracting := [2]
  rhsNonContracting := [2]
  lhsBatch := [0]
  rhsBatch := [0]
  wf := dot_S16x16384x256_S16x16384x4_S16x256x4_1_1_2_2_0_0_wf
def dot_S16x16384x4_S16x16384x4_S16x4x4_1_1_2_2_0_0 : DotDims S16x16384x4 S16x16384x4 S16x4x4 where
  lhsContracting := [1]
  rhsContracting := [1]
  lhsNonContracting := [2]
  rhsNonContracting := [2]
  lhsBatch := [0]
  rhsBatch := [0]
  wf := dot_S16x16384x4_S16x16384x4_S16x4x4_1_1_2_2_0_0_wf

class Facts : Prop extends Facts₀ where

variable [Facts]
-- ==== Proof.GramCases.lean ====
/-
  What one grid point leaves in the three Gram accumulators.

  The grid walks the batches and, inside a batch, the four row tiles of 4096 rows. At a batch's first tile the
  body stores zero into each accumulator block, reads the block back and adds the tile's partial Gram matrix, so
  it leaves zero plus the partial product; at the other three tiles it adds the tile's partial product to what
  the block already held. Stated for any float instance: each accumulator ends at the body's last store of it,
  a pure term of the two input blocks and of the block's earlier contents.
-/
import proofs.«116870_j17386027614820_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Gram

open Cert.KernelIdeal Cert.KernelIdeal.Gen

variable {F : FTy → Type} [FloatOps F]

/-- Every block of this kernel is read and written from its origin. -/
theorem hz3 : (![0, 0, 0] : Fin 3 → Nat) = fun _ => 0 := funext fun a => by fin_cases a <;> rfl

/-- A later tile of a batch adds its partial product of the normalized rows with themselves to the block's contents. -/
theorem vv_next (c : Dev nD) (i : grid0.Coords) (a2 : Memref sig .tc .vmem S1x4096x256 .f32) (h2 : a2.IsWhole) (a3 : Memref sig .tc .vmem S1x4096x4 .f32) (h3 : a3.IsWhole) (a4 : Memref sig .tc .vmem S1x256x256 .f32) (h4 : a4.IsWhole) (a5 : Memref sig .tc .vmem S1x256x4 .f32) (h5 : a5.IsWhole) (a6 : Memref sig .tc .vmem S1x4x4 .f32) (h6 : a6.IsWhole) (hc : ¬cond0_0 i)
    (x0 : Vec F S1x4096x256 .f32) (x1 : Vec F S1x4096x4 .f32) (xo2 : Vec F S1x256x256 .f32) (xo3 : Vec F S1x256x4 .f32) (xo4 : Vec F S1x4x4 .f32) :
    out0_B_2 c i a2 h2 a3 h3 a4 h4 a5 h5 a6 h6 hc x0 x1 xo2 xo3 xo4 = k0_pay9 x0 xo2 := by
  unfold out0_B_2
  rw [View.read_writes_eq_canon _ _ _ (cover0_B_2 c i a2 h2 a3 h3 a4 h4 a5 h5 a6 h6 hc x0 x1 xo2 xo3 xo4)]
  unfold kernelRun0_B
  dsimp only
  try sl_unfold_words
  rw [View.canon_unit_zero hz3]
  simp only [View.readAt_eq_ld, h2.read_unread, h3.read_unread, h4.read_unread, h5.read_unread, h6.read_unread,
    View.ld_unit_zero (S := S1x4096x256) hz3, View.ld_unit_zero (S := S1x4096x4) hz3, View.ld_unit_zero (S := S1x256x256) hz3,
    View.ld_unit_zero (S := S1x256x4) hz3, View.ld_unit_zero (S := S1x4x4) hz3]

/-- A later tile adds its partial product of the normalized rows with the label rows to the block's contents. -/
theorem vy_next (c : Dev nD) (i : grid0.Coords) (a2 : Memref sig .tc .vmem S1x4096x256 .f32) (h2 : a2.IsWhole) (a3 : Memref sig .tc .vmem S1x4096x4 .f32) (h3 : a3.IsWhole) (a4 : Memref sig .tc .vmem S1x256x256 .f32) (h4 : a4.IsWhole) (a5 : Memref sig .tc .vmem S1x256x4 .f32) (h5 : a5.IsWhole) (a6 : Memref sig .tc .vmem S1x4x4 .f32) (h6 : a6.IsWhole) (hc : ¬cond0_0 i)
    (x0 : Vec F S1x4096x256 .f32) (x1 : Vec F S1x4096x4 .f32) (xo2 : Vec F S1x256x256 .f32) (xo3 : Vec F S1x256x4 .f32) (xo4 : Vec F S1x4x4 .f32) :
    out0_B_3 c i a2 h2 a3 h3 a4 h4 a5 h5 a6 h6 hc x0 x1 xo2 xo3 xo4 = k0_pay1 (k0_pay10 x0 x1 xo3) := by
  unfold out0_B_3
  rw [View.read_writes_eq_canon _ _ _ (cover0_B_3 c i a2 h2 a3 h3 a4 h4 a5 h5 a6 h6 hc x0 x1 xo2 xo3 xo4)]
  unfold kernelRun0_B
  dsimp only
  try sl_unfold_words
  rw [View.canon_unit_zero hz3]
  simp only [View.readAt_eq_ld, h2.read_unread, h3.read_unread, h4.read_unread, h5.read_unread, h6.read_unread,
    View.ld_unit_zero (S := S1x4096x256) hz3, View.ld_unit_zero (S := S1x4096x4) hz3, View.ld_unit_zero (S := S1x256x256) hz3,
    View.ld_unit_zero (S := S1x256x4) hz3, View.ld_unit_zero (S := S1x4x4) hz3]

/-- A later tile adds its partial product of the label rows with themselves to the block's contents. -/
theorem yy_next (c : Dev nD) (i : grid0.Coords) (a2 : Memref sig .tc .vmem S1x4096x256 .f32) (h2 : a2.IsWhole) (a3 : Memref sig .tc .vmem S1x4096x4 .f32) (h3 : a3.IsWhole) (a4 : Memref sig .tc .vmem S1x256x256 .f32) (h4 : a4.IsWhole) (a5 : Memref sig .tc .vmem S1x256x4 .f32) (h5 : a5.IsWhole) (a6 : Memref sig .tc .vmem S1x4x4 .f32) (h6 : a6.IsWhole) (hc : ¬cond0_0 i)
    (x0 : Vec F S1x4096x256 .f32) (x1 : Vec F S1x4096x4 .f32) (xo2 : Vec F S1x256x256 .f32) (xo3 : Vec F S1x256x4 .f32) (xo4 : Vec F S1x4x4 .f32) :
    out0_B_4 c i a2 h2 a3 h3 a4 h4 a5 h5 a6 h6 hc x0 x1 xo2 xo3 xo4 = k0_pay2 (k0_pay8 x1) xo4 := by
  unfold out0_B_4
  rw [View.read_writes_eq_canon _ _ _ (cover0_B_4 c i a2 h2 a3 h3 a4 h4 a5 h5 a6 h6 hc x0 x1 xo2 xo3 xo4)]
  unfold kernelRun0_B
  dsimp only
  try sl_unfold_words
  rw [View.canon_unit_zero hz3]
  simp only [View.readAt_eq_ld, h2.read_unread, h3.read_unread, h4.read_unread, h5.read_unread, h6.read_unread,
    View.ld_unit_zero (S := S1x4096x256) hz3, View.ld_unit_zero (S := S1x4096x4) hz3, View.ld_unit_zero (S := S1x256x256) hz3,
    View.ld_unit_zero (S := S1x256x4) hz3, View.ld_unit_zero (S := S1x4x4) hz3]

/-- A batch's first tile leaves the zero block plus its partial product of the normalized rows with themselves. -/
theorem vv_first (c : Dev nD) (i : grid0.Coords) (a2 : Memref sig .tc .vmem S1x4096x256 .f32) (h2 : a2.IsWhole) (a3 : Memref sig .tc .vmem S1x4096x4 .f32) (h3 : a3.IsWhole) (a4 : Memref sig .tc .vmem S1x256x256 .f32) (h4 : a4.IsWhole) (a5 : Memref sig .tc .vmem S1x256x4 .f32) (h5 : a5.IsWhole) (a6 : Memref sig .tc .vmem S1x4x4 .f32) (h6 : a6.IsWhole) (hc : cond0_0 i)
    (x0 : Vec F S1x4096x256 .f32) (x1 : Vec F S1x4096x4 .f32) :
    out0_A_2 c i a2 h2 a3 h3 a4 h4 a5 h5 a6 h6 hc x0 x1 = k0_pay9 x0 k0_pay3 := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S1x256x256) hz3, View.readCov_unit_zero (S := S1x256x256) _ hz3]
  simp only [View.readAt_eq_ld, h2.read_unread, h3.read_unread,
    View.ld_unit_zero (S := S1x4096x256) hz3, View.ld_unit_zero (S := S1x4096x4) hz3]

/-- A batch's first tile leaves the zero block plus its partial product of the normalized rows with the label rows. -/
theorem vy_first (c : Dev nD) (i : grid0.Coords) (a2 : Memref sig .tc .vmem S1x4096x256 .f32) (h2 : a2.IsWhole) (a3 : Memref sig .tc .vmem S1x4096x4 .f32) (h3 : a3.IsWhole) (a4 : Memref sig .tc .vmem S1x256x256 .f32) (h4 : a4.IsWhole) (a5 : Memref sig .tc .vmem S1x256x4 .f32) (h5 : a5.IsWhole) (a6 : Memref sig .tc .vmem S1x4x4 .f32) (h6 : a6.IsWhole) (hc : cond0_0 i)
    (x0 : Vec F S1x4096x256 .f32) (x1 : Vec F S1x4096x4 .f32) :
    out0_A_3 c i a2 h2 a3 h3 a4 h4 a5 h5 a6 h6 hc x0 x1 = k0_pay1 (k0_pay10 x0 x1 k0_pay4) := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1x256x4) hz3, View.readCov_unit_zero (S := S1x256x4) _ hz3]
  simp only [View.readAt_eq_ld, h2.read_unread, h3.read_unread,
    View.ld_unit_zero (S := S1x4096x256) hz3, View.ld_unit_zero (S := S1x4096x4) hz3]

/-- A batch's first tile leaves the zero block plus its partial product of the label rows with themselves. -/
theorem yy_first (c : Dev nD) (i : grid0.Coords) (a2 : Memref sig .tc .vmem S1x4096x256 .f32) (h2 : a2.IsWhole) (a3 : Memref sig .tc .vmem S1x4096x4 .f32) (h3 : a3.IsWhole) (a4 : Memref sig .tc .vmem S1x256x256 .f32) (h4 : a4.IsWhole) (a5 : Memref sig .tc .vmem S1x256x4 .f32) (h5 : a5.IsWhole) (a6 : Memref sig .tc .vmem S1x4x4 .f32) (h6 : a6.IsWhole) (hc : cond0_0 i)
    (x0 : Vec F S1x4096x256 .f32) (x1 : Vec F S1x4096x4 .f32) :
    out0_A_4 c i a2 h2 a3 h3 a4 h4 a5 h5 a6 h6 hc x0 x1 = k0_pay2 (k0_pay8 x1) k0_pay5 := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S1x4x4) hz3, View.readCov_unit_zero (S := S1x4x4) _ hz3]
  simp only [View.readAt_eq_ld, h2.read_unread, h3.read_unread,
    View.ld_unit_zero (S := S1x4096x256) hz3, View.ld_unit_zero (S := S1x4096x4) hz3]

/-! ## The three accumulators after each grid point -/

variable (m : (ℓ : Loc nD τ sig) → Buf (Elt F) ℓ)

set_option maxHeartbeats 1600000 in
/-- After a batch's first tile the feature accumulator holds the zero block plus that tile's partial product; -/
theorem vv_at_first (c : Dev nD) (t : Fin cfg0.N) (h0 : t.val % 4 = 0) :
    (outsAt0 m c t.val t.isLt).1 = k0_pay9 (iblk m c 0 t) k0_pay3 :=
  (congrArg (fun p => p.1) (outsAt0_A m c t h0)).trans
    (vv_first c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t))
/-- the mixed accumulator likewise; -/
theorem vy_at_first (c : Dev nD) (t : Fin cfg0.N) (h0 : t.val % 4 = 0) :
    (outsAt0 m c t.val t.isLt).2.1 = k0_pay1 (k0_pay10 (iblk m c 0 t) (iblk m c 1 t) k0_pay4) :=
  (congrArg (fun p => p.2.1) (outsAt0_A m c t h0)).trans
    (vy_first c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t))
/-- and the label accumulator. -/
theorem yy_at_first (c : Dev nD) (t : Fin cfg0.N) (h0 : t.val % 4 = 0) :
    (outsAt0 m c t.val t.isLt).2.2 = k0_pay2 (k0_pay8 (iblk m c 1 t)) k0_pay5 :=
  (congrArg (fun p => p.2.2) (outsAt0_A m c t h0)).trans
    (yy_first c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t))

set_option maxHeartbeats 1600000 in
/-- After a later tile the feature accumulator holds what the point before left plus this tile's partial product; -/
theorem vv_at_next (c : Dev nD) (t : Fin cfg0.N) (h0 : ¬t.val % 4 = 0) :
    (outsAt0 m c t.val t.isLt).1 = k0_pay9 (iblk m c 0 t) (outsAt0 m c (t.val - 1) (Nat.lt_of_le_of_lt (Nat.sub_le _ _) t.isLt)).1 :=
  (congrArg (fun p => p.1) (outsAt0_B m c t h0)).trans
    (vv_next c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t)
      (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2)
/-- the mixed accumulator likewise; -/
theorem vy_at_next (c : Dev nD) (t : Fin cfg0.N) (h0 : ¬t.val % 4 = 0) :
    (outsAt0 m c t.val t.isLt).2.1 = k0_pay1 (k0_pay10 (iblk m c 0 t) (iblk m c 1 t) (outsAt0 m c (t.val - 1) (Nat.lt_of_le_of_lt (Nat.sub_le _ _) t.isLt)).2.1) :=
  (congrArg (fun p => p.2.1) (outsAt0_B m c t h0)).trans
    (vy_next c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t)
      (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2)
/-- and the label accumulator. -/
theorem yy_at_next (c : Dev nD) (t : Fin cfg0.N) (h0 : ¬t.val % 4 = 0) :
    (outsAt0 m c t.val t.isLt).2.2 = k0_pay2 (k0_pay8 (iblk m c 1 t)) (outsAt0 m c (t.val - 1) (Nat.lt_of_le_of_lt (Nat.sub_le _ _) t.isLt)).2.2 :=
  (congrArg (fun p => p.2.2) (outsAt0_B m c t h0)).trans
    (yy_next c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t)
      (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2)

end Cert.KernelIdeal.Gram

end
-- ==== Proof.GramSpec.lean ====
/-
  The three Gram matrices of row-normalized embeddings and labels, as functions of the whole arrays.

  For each batch b, every one of the 16384 rows of 256 features is divided by the larger of its Euclidean length and
  a small floor. Entry (d, e) of the batch's feature Gram matrix is the sum over the rows of the products of the
  normalized entries d and e; entry (d, s) of the mixed matrix the sum of normalized entry d times label s; entry
  (s, u) of the label matrix the sum of label s times label u. All sums are over the extended reals, where addition
  is commutative and associative with no condition on the summands, so the 16384 rows may be summed as four
  consecutive tiles of 4096 rows, one tile after the other, starting from zero.
-/
import Idealize.ShloMosaic.PureOps.Ideal
import Idealize.ShloMosaic.Lib.ValueIdx
import Mathlib.Algebra.BigOperators.Fin
import Mathlib.Logic.Equiv.Fin.Basic

noncomputable section

namespace Cert.GramSpec

open Idealize.ShloMosaic Idealize.ShloMosaic.ValueIdx

/-- Entry d of a row of 256 numbers divided by the larger of the row's Euclidean length and the floor. -/
def unitEntry (row : Fin 256 → EReal) (d : Fin 256) : EReal :=
  Ideal.div (row d) (max (Ideal.sqrt (∑ e : Fin 256, row e * row e)) (Ideal.ofBits .f32 0x2B8CBCCC#32))

/-- The embeddings, and the labels. -/
abbrev Emb : Type := (⟨3, ![16, 16384, 256]⟩ : Shape).Idx → EReal
abbrev Lbl : Type := (⟨3, ![16, 16384, 4]⟩ : Shape).Idx → EReal

/-- Row k of batch b. -/
abbrev rowOf (X : Emb) (b : Fin 16) (k : Fin 16384) : Fin 256 → EReal := fun e => X (ix3 b k e)

/-- Feature Gram matrix of batch b at (d, e). -/
def gvvAt (X : Emb) (b : Fin 16) (d e : Fin 256) : EReal :=
  ∑ k : Fin 16384, unitEntry (rowOf X b k) d * unitEntry (rowOf X b k) e
/-- Mixed Gram matrix of batch b at (d, s). -/
def gvyAt (X : Emb) (Y : Lbl) (b : Fin 16) (d : Fin 256) (s : Fin 4) : EReal :=
  ∑ k : Fin 16384, unitEntry (rowOf X b k) d * Y (ix3 b k s)
/-- Label Gram matrix of batch b at (s, u). -/
def gyyAt (Y : Lbl) (b : Fin 16) (s u : Fin 4) : EReal :=
  ∑ k : Fin 16384, Y (ix3 b k s) * Y (ix3 b k u)

/-- The same as arrays. -/
def gvv (X : Emb) : (⟨3, ![16, 256, 256]⟩ : Shape).Idx → EReal :=
  fun i => gvvAt X ⟨(i 0).val, (i 0).isLt⟩ ⟨(i 1).val, (i 1).isLt⟩ ⟨(i 2).val, (i 2).isLt⟩
def gvy (X : Emb) (Y : Lbl) : (⟨3, ![16, 256, 4]⟩ : Shape).Idx → EReal :=
  fun i => gvyAt X Y ⟨(i 0).val, (i 0).isLt⟩ ⟨(i 1).val, (i 1).isLt⟩ ⟨(i 2).val, (i 2).isLt⟩
def gyy (Y : Lbl) : (⟨3, ![16, 4, 4]⟩ : Shape).Idx → EReal :=
  fun i => gyyAt Y ⟨(i 0).val, (i 0).isLt⟩ ⟨(i 1).val, (i 1).isLt⟩ ⟨(i 2).val, (i 2).isLt⟩

theorem gvv_ix3 (X : Emb) (b : Fin 16) (d e : Fin 256) : gvv X (ix3 b d e) = gvvAt X b d e := rfl
theorem gvy_ix3 (X : Emb) (Y : Lbl) (b : Fin 16) (d : Fin 256) (s : Fin 4) : gvy X Y (ix3 b d s) = gvyAt X Y b d s := rfl
theorem gyy_ix3 (Y : Lbl) (b : Fin 16) (s u : Fin 4) : gyy Y (ix3 b s u) = gyyAt Y b s u := rfl

/-- Row r of tile j is row 4096 j + r. -/
abbrev tileIdx (j : Fin 4) (r : Fin 4096) : Fin 16384 :=
  ⟨j.val * 4096 + r.val, by have := j.isLt; have := r.isLt; omega⟩

/-- A sum over the 16384 rows is the sum, tile by tile, over the four tiles of 4096 consecutive rows. -/
theorem sum_tiles {M : Type} [AddCommMonoid M] (g : Fin 16384 → M) :
    ∑ k : Fin 16384, g k = ∑ j : Fin 4, ∑ r : Fin 4096, g (tileIdx j r) := by
  have h := Fintype.sum_equiv (finProdFinEquiv : Fin 4 × Fin 4096 ≃ Fin (4 * 4096))
    (fun p => g (finProdFinEquiv p)) g (fun _ => rfl)
  rw [← h, Fintype.sum_prod_type]
  refine Finset.sum_congr rfl fun j _ => Finset.sum_congr rfl fun r _ => congrArg g (Fin.ext ?_)
  show r.val + 4096 * j.val = j.val * 4096 + r.val
  omega

/-- So it is what an accumulator holds that starts at zero and receives the four tiles' sums in order. -/
theorem sum_as_chain (g : Fin 16384 → EReal) :
    0 + (∑ r : Fin 4096, g (tileIdx 0 r)) + (∑ r : Fin 4096, g (tileIdx 1 r)) + (∑ r : Fin 4096, g (tileIdx 2 r))
        + (∑ r : Fin 4096, g (tileIdx 3 r))
      = ∑ k : Fin 16384, g k := by
  rw [sum_tiles, Fin.sum_univ_four, zero_add]

end Cert.GramSpec

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«116870_j17386027614820_1_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.LibMatmulTAt.lean ====
/-
  A matrix product with the left operand transposed, read at an element.

  A contraction whose dimension numbers contract axis 0 of BOTH operands — a [K, R] left operand against a [K, C]
  right operand, no batch axis, the result [R, C]: the product Lᵀ · R — accumulated into the zero splat, read at the
  element (p, q) is ∑ k, l(k, p) * r(k, q) over the extended reals. The statement is over ANY record of dimension
  numbers with those six lists, whatever its extents.
-/
import Idealize.ShloMosaic.PureOps.Ideal.Laws
import Idealize.ShloMosaic.Lib.ValueIdx

noncomputable section

namespace Cert.LibMatmulTAt

open Idealize.ShloMosaic Idealize.ShloMosaic.ValueIdx

/-- The dimension numbers of a [K, R]ᵀ × [K, C] product, with its well-formedness proof a variable: every record with
    those six lists is this one. -/
abbrev transOf {R K C : ℕ}
    (wf : DotDims.WF ⟨2, ![K, R]⟩ ⟨2, ![K, C]⟩ ⟨2, ![R, C]⟩ [0] [0] [1] [1] [] []) :
    DotDims ⟨2, ![K, R]⟩ ⟨2, ![K, C]⟩ ⟨2, ![R, C]⟩ :=
  ⟨[0], [0], [1], [1], [], [], wf⟩

/-- The sum over the one-axis contraction index, re-indexed by that axis's coordinate, reads the left operand at (k, p)
    and the right operand at (k, q). -/
theorem transOf_sum {R K C : ℕ} (wf : DotDims.WF ⟨2, ![K, R]⟩ ⟨2, ![K, C]⟩ ⟨2, ![R, C]⟩ [0] [0] [1] [1] [] [])
    (l : (⟨2, ![K, R]⟩ : Shape).Idx → EReal) (r : (⟨2, ![K, C]⟩ : Shape).Idx → EReal) (p : Fin R) (q : Fin C) :
    (∑ k : (transOf wf).contr.Idx, l ((transOf wf).lhsIdx (ix2 p q) k) * r ((transOf wf).rhsIdx (ix2 p q) k))
      = ∑ k : Fin K, l (ix2 k p) * r (ix2 k q) := by
  have l1 : ∀ kk : (transOf wf).contr.Idx, ((transOf wf).lhsIdx (ix2 p q) kk 1).val = p.val := fun kk => by
    unfold DotDims.lhsIdx
    rw [dif_neg (show ¬(1 : Fin (⟨2, ![K, R]⟩ : Shape).rank) ∈ (transOf wf).lhsBatch from List.not_mem_nil),
      dif_pos (show (1 : Fin (⟨2, ![K, R]⟩ : Shape).rank) ∈ (transOf wf).lhsNonContracting from List.mem_singleton.mpr rfl)]
    rfl
  have r1 : ∀ kk : (transOf wf).contr.Idx, ((transOf wf).rhsIdx (ix2 p q) kk 1).val = q.val := fun kk => by
    unfold DotDims.rhsIdx
    rw [dif_neg (show ¬(1 : Fin (⟨2, ![K, C]⟩ : Shape).rank) ∈ (transOf wf).rhsBatch from List.not_mem_nil),
      dif_pos (show (1 : Fin (⟨2, ![K, C]⟩ : Shape).rank) ∈ (transOf wf).rhsNonContracting from List.mem_singleton.mpr rfl)]
    rfl
  rw [← Equiv.sum_comp (contrEquiv1 (transOf wf) K rfl rfl).symm]
  refine Finset.sum_congr rfl fun k _ => ?_
  have hk := contrEquiv1_symm_val (transOf wf) K rfl rfl k
  have el : (transOf wf).lhsIdx (ix2 p q) ((contrEquiv1 (transOf wf) K rfl rfl).symm k) = ix2 k p :=
    funext fun a => Fin.ext (by
      match a with
      | ⟨0, _⟩ => exact ((transOf wf).lhsIdx_val_of_single rfl _ _).trans hk
      | ⟨1, _⟩ => exact l1 _)
  have er : (transOf wf).rhsIdx (ix2 p q) ((contrEquiv1 (transOf wf) K rfl rfl).symm k) = ix2 k q :=
    funext fun a => Fin.ext (by
      match a with
      | ⟨0, _⟩ => exact ((transOf wf).rhsIdx_val_of_single rfl _ _).trans hk
      | ⟨1, _⟩ => exact r1 _)
  rw [el, er]

/-- A product Lᵀ · R into the zero accumulator, for any record of dimension numbers that contracts axis 0 of both a
    [K, R] and a [K, C] operand, read at (p, q): the sum over k of the left operand at (k, p) times the right at (k, q). -/
theorem matmul_zero_apply {R K C : ℕ} {φ₁ φ₂ : FTy} (D : DotDims ⟨2, ![K, R]⟩ ⟨2, ![K, C]⟩ ⟨2, ![R, C]⟩)
    (hlc : D.lhsContracting = [0]) (hrc : D.rhsContracting = [0]) (hln : D.lhsNonContracting = [1])
    (hrn : D.rhsNonContracting = [1]) (hlb : D.lhsBatch = []) (hrb : D.rhsBatch = [])
    (prec : Option ContractPrecision) (l : FVec Ideal ⟨2, ![K, R]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 k p) * r (ix2 k q) := by
  obtain ⟨lc, rc, ln, rn, lb, rb, wf⟩ := D
  dsimp only at hlc hrc hln hrn hlb hrb
  subst hlc hrc hln hrn hlb hrb
  exact (Ideal.matmul_constant_zero_apply (transOf wf) prec l r (ix2 p q)).trans (transOf_sum wf l r p q)

end Cert.LibMatmulTAt

end
-- ==== Proof.GramBlock.lean ====
/-
  One tile's contribution to the three Gram matrices, entry by entry, on the extended reals.

  A tile is 4096 rows of 256 features and the same rows' 4 label columns. Each row is first divided by the larger of
  its Euclidean length and a small floor; a change of float format does nothing to an extended real. The tile then
  contributes, to entry (d, e) of the feature Gram matrix, the sum over its rows of the products of the normalized
  entries d and e; to entry (d, s) of the mixed matrix the sum of normalized entry d times label s; to entry (s, u)
  of the label matrix the sum of label s times label u. Each accumulator block is its earlier contents plus that
  contribution; the block a batch starts from is zero.
-/
import proofs.«116870_j17386027614820_1_alg».proof.Proof.Gen.KernelIdeal.Skeleton
import proofs.«116870_j17386027614820_1_alg».proof.Proof.GramSpec
import proofs.«116870_j17386027614820_1_alg».proof.Proof.LibRowReduce
import proofs.«116870_j17386027614820_1_alg».proof.Proof.LibMatmulTAt
import Idealize.ShloMosaic.Lib.ValueLayout
import Idealize.ShloMosaic.Lib.ValueIdx
import Idealize.ShloMosaic.PureOps.Ideal.Laws

noncomputable section

open Idealize.ShloMosaic Idealize.ShloMosaic.ValueIdx

namespace Cert.KernelIdeal.Gram

open Cert.KernelIdeal Cert.KernelIdeal.Gen
open Cert.GramSpec (unitEntry)

/-- Row r of a tile of features. -/
abbrev tileRow (x : Vec Ideal S1x4096x256 .f32) (r : Fin 4096) : Fin 256 → EReal := fun e => x (ix3 (0 : Fin 1) r e)

/-- The normalized tile at (r, d) is row r's entry d divided by the larger of the row's length and the floor. -/
theorem unit_apply (x : Vec Ideal S1x4096x256 .f32) (r : Fin 4096) (d : Fin 256) :
    k0_pay6 (F := Ideal) x (ix2 r d) = unitEntry (tileRow x r) d := by
  have hx : ∀ e : Fin 256, shapeCast S4096x256 x shapeCasts_S1x4096x256_S4096x256 (ix2 r e) = x (ix3 (0 : Fin 1) r e) :=
    fun e => shapeCast_1ab_ab_apply x _ r e
  unfold k0_pay6 Cert.GramSpec.unitEntry
  show Ideal.div (shapeCast S4096x256 x _ (ix2 r d)) (broadcastTo S4096x256 _ _ (ix2 r d)) = _
  refine congrArg₂ Ideal.div (hx d) ?_
  refine (Cert.LibColumn.broadcastTo_a1_ab_apply _ _ r d).trans ?_
  show max (Ideal.sqrt (shapeCast S4096x1 _ _ (ix2 r (0 : Fin 1)))) (Ideal.ofBits .f32 0x2B8CBCCC#32) = _
  refine congrArg (fun z => max (Ideal.sqrt z) (Ideal.ofBits .f32 0x2B8CBCCC#32)) ?_
  refine (Cert.LibColumn.shapeCast_a_a1_apply _ _ r 0).trans ?_
  refine (Cert.LibRowReduce.rowSum_apply _ _ _ _ _ r).trans ?_
  exact Finset.sum_congr rfl fun e _ => congrArg₂ (· * ·) (hx e) (hx e)

/-- The label tile at (r, s) is the loaded block's entry. -/
theorem label_apply (y : Vec Ideal S1x4096x4 .f32) (r : Fin 4096) (s : Fin 4) :
    k0_pay7 (F := Ideal) y (ix2 r s) = y (ix3 (0 : Fin 1) r s) := by
  unfold k0_pay7
  exact shapeCast_1ab_ab_apply y _ r s

/-- A tile's contribution to the feature Gram matrix at (d, e). -/
def tileVV (x : Vec Ideal S1x4096x256 .f32) (d e : Fin 256) : EReal :=
  ∑ r : Fin 4096, unitEntry (tileRow x r) d * unitEntry (tileRow x r) e
/-- A tile's contribution to the mixed Gram matrix at (d, s). -/
def tileVY (x : Vec Ideal S1x4096x256 .f32) (y : Vec Ideal S1x4096x4 .f32) (d : Fin 256) (s : Fin 4) : EReal :=
  ∑ r : Fin 4096, unitEntry (tileRow x r) d * y (ix3 (0 : Fin 1) r s)
/-- A tile's contribution to the label Gram matrix at (s, u). -/
def tileYY (y : Vec Ideal S1x4096x4 .f32) (s u : Fin 4) : EReal :=
  ∑ r : Fin 4096, y (ix3 (0 : Fin 1) r s) * y (ix3 (0 : Fin 1) r u)

/-- The feature accumulator after a tile: its contents before plus the tile's contribution. -/
theorem vv_apply (x : Vec Ideal S1x4096x256 .f32) (acc : Vec Ideal S1x256x256 .f32) (u : Fin 1) (d e : Fin 256) :
    k0_pay9 (F := Ideal) x acc (ix3 u d e) = acc (ix3 u d e) + tileVV x d e := by
  obtain rfl : u = 0 := Subsingleton.elim _ _
  unfold k0_pay9 tileVV
  refine (shapeCast_ab_1ab_apply _ _ (0 : Fin 1) d e).trans ?_
  show shapeCast S256x256 acc _ (ix2 d e) + matmul (F := Ideal) _ none _ _ _ (ix2 d e) = _
  refine congrArg₂ (· + ·) (shapeCast_1ab_ab_apply acc _ d e) ?_
  refine (Cert.LibMatmulTAt.matmul_zero_apply dot_S4096x256_S4096x256_S256x256_0_0_1_1_n_n rfl rfl rfl rfl rfl rfl none _ _ d e).trans ?_
  exact Finset.sum_congr rfl fun r _ => congrArg₂ (· * ·) (unit_apply x r d) (unit_apply x r e)

/-- The mixed accumulator after a tile. -/
theorem vy_apply (x : Vec Ideal S1x4096x256 .f32) (y : Vec Ideal S1x4096x4 .f32) (acc : Vec Ideal S1x256x4 .f32)
    (u : Fin 1) (d : Fin 256) (s : Fin 4) :
    k0_pay1 (F := Ideal) (k0_pay10 (F := Ideal) x y acc) (ix3 u d s) = acc (ix3 u d s) + tileVY x y d s := by
  obtain rfl : u = 0 := Subsingleton.elim _ _
  unfold k0_pay1 k0_pay10 tileVY
  refine (shapeCast_ab_1ab_apply _ _ (0 : Fin 1) d s).trans ?_
  show shapeCast S256x4 acc _ (ix2 d s) + matmul (F := Ideal) _ none _ _ _ (ix2 d s) = _
  refine congrArg₂ (· + ·) (shapeCast_1ab_ab_apply acc _ d s) ?_
  refine (Cert.LibMatmulTAt.matmul_zero_apply dot_S4096x256_S4096x4_S256x4_0_0_1_1_n_n rfl rfl rfl rfl rfl rfl none _ _ d s).trans ?_
  exact Finset.sum_congr rfl fun r _ => congrArg₂ (· * ·) (unit_apply x r d) (label_apply y r s)

/-- The label accumulator after a tile. -/
theorem yy_apply (y : Vec Ideal S1x4096x4 .f32) (acc : Vec Ideal S1x4x4 .f32) (u : Fin 1) (s v : Fin 4) :
    k0_pay2 (F := Ideal) (k0_pay8 (F := Ideal) y) acc (ix3 u s v) = acc (ix3 u s v) + tileYY y s v := by
  obtain rfl : u = 0 := Subsingleton.elim _ _
  unfold k0_pay2 k0_pay8 tileYY
  refine (shapeCast_ab_1ab_apply _ _ (0 : Fin 1) s v).trans ?_
  show shapeCast S4x4 acc _ (ix2 s v) + matmul (F := Ideal) _ none _ _ _ (ix2 s v) = _
  refine congrArg₂ (· + ·) (shapeCast_1ab_ab_apply acc _ s v) ?_
  refine (Cert.LibMatmulTAt.matmul_zero_apply dot_S4096x4_S4096x4_S4x4_0_0_1_1_n_n rfl rfl rfl rfl rfl rfl none _ _ s v).trans ?_
  exact Finset.sum_congr rfl fun r _ => congrArg₂ (· * ·) (label_apply y r s) (label_apply y r v)

/-- The block a batch starts from is zero everywhere: feature matrix, -/
theorem zeroVV_apply (u : Fin 1) (d e : Fin 256) : k0_pay3 (F := Ideal) (ix3 u d e) = 0 := by
  unfold k0_pay3
  exact (shapeCast_ab_1ab_apply _ _ u d e).trans Ideal.ofBits_zero_f32
/-- mixed matrix, -/
theorem zeroVY_apply (u : Fin 1) (d : Fin 256) (s : Fin 4) : k0_pay4 (F := Ideal) (ix3 u d s) = 0 := by
  unfold k0_pay4
  exact (shapeCast_ab_1ab_apply _ _ u d s).trans Ideal.ofBits_zero_f32
/-- label matrix. -/
theorem zeroYY_apply (u : Fin 1) (s v : Fin 4) : k0_pay5 (F := Ideal) (ix3 u s v) = 0 := by
  unfold k0_pay5
  exact (shapeCast_ab_1ab_apply _ _ u s v).trans Ideal.ofBits_zero_f32

end Cert.KernelIdeal.Gram

end
-- ==== Proof.GramAccum.lean ====
/-
  The three Gram arrays after the kernel's region.

  The grid's 64 points are the 16 batches times the four row tiles of a batch, the tile index moving fastest. Each
  output block is indexed by the batch alone, so it stays in its staging buffer through a batch's four points and is
  written back after the fourth. By then it holds zero plus the four tiles' contributions in order, which is the
  sum over the batch's 16384 rows; and the sixteen written-back blocks tile the output array.
-/
import proofs.«116870_j17386027614820_1_alg».proof.Proof.GramCases
import proofs.«116870_j17386027614820_1_alg».proof.Proof.GramBlock
import proofs.«116870_j17386027614820_1_alg».proof.Proof.GramSpec
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Gram

open Cert.KernelIdeal Cert.KernelIdeal.Gen Cert.GramSpec

variable (m : (ℓ : Loc nD τ sig) → Buf (Elt Ideal) ℓ)

/-- The embeddings and the labels as core c's memory holds them at launch. -/
abbrev embOf (c : Dev nD) : Emb := m ((c.tc : Thread nD τ).loc main_arg0)
abbrev lblOf (c : Dev nD) : Lbl := m ((c.tc : Thread nD τ).loc main_arg1)

/-- The index maps over the grid: point t is tile t mod 4 of batch t div 4; the inputs' blocks move with both, the
    outputs' with the batch only. -/
theorem idx_facts : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = t.val % 4 ∧ win0_1.index t (2 : Fin 3) = 0)
    ∧ (win0_2.index t (0 : Fin 3) = t.val / 4 ∧ win0_2.index t (1 : Fin 3) = 0 ∧ win0_2.index t (2 : Fin 3) = 0)
    ∧ (win0_3.index t (0 : Fin 3) = t.val / 4 ∧ win0_3.index t (1 : Fin 3) = 0 ∧ win0_3.index t (2 : Fin 3) = 0)
    ∧ (win0_4.index t (0 : Fin 3) = t.val / 4 ∧ win0_4.index t (1 : Fin 3) = 0 ∧ win0_4.index t (2 : Fin 3) = 0) :=
  (by decide +kernel : ∀ t : Fin grid0.N, _)

/-- The feature block at point t is rows 4096 (t mod 4) … of batch t div 4. -/
theorem emb_blk (c : Dev nD) (t : Fin cfg0.N) (x : S1x4096x256.Idx) (k : S16x16384x256.Idx)
    (hk0 : (k 0).val = t.val / 4) (hk1 : (k 1).val = t.val % 4 * 4096 + (x 1).val) (hk2 : (k 2).val = (x 2).val) :
    (iblk m c 0 t : Vec Ideal S1x4096x256 .f32) x = (m ((c.tc : Thread nD τ).loc main_arg0) : S16x16384x256.Idx → Elt Ideal .f32) k := by
  obtain ⟨⟨e0, e1, e2⟩, -⟩ := idx_facts t
  have hx0 : (x 0).val < 1 := (x 0).isLt
  unfold iblk
  rw [View.read_apply]
  show V m c main_arg0 _ = m (c.tc.loc main_arg0) _
  unfold V
  congr 1
  funext a
  apply Fin.ext
  match a with
  | ⟨0, _⟩ => show win0_0.index t (0 : Fin 3) * 1 + 1 * (x 0).val = (k 0).val; rw [e0, hk0]; omega
  | ⟨1, _⟩ => show win0_0.index t (1 : Fin 3) * 4096 + 1 * (x 1).val = (k 1).val; rw [e1, hk1]; omega
  | ⟨2, _⟩ => show win0_0.index t (2 : Fin 3) * 256 + 1 * (x 2).val = (k 2).val; rw [e2, hk2]; omega

/-- The label block at point t is the same rows of the labels. -/
theorem lbl_blk (c : Dev nD) (t : Fin cfg0.N) (x : S1x4096x4.Idx) (k : S16x16384x4.Idx)
    (hk0 : (k 0).val = t.val / 4) (hk1 : (k 1).val = t.val % 4 * 4096 + (x 1).val) (hk2 : (k 2).val = (x 2).val) :
    (iblk m c 1 t : Vec Ideal S1x4096x4 .f32) x = (m ((c.tc : Thread nD τ).loc main_arg1) : S16x16384x4.Idx → Elt Ideal .f32) k := by
  obtain ⟨-, ⟨e0, e1, e2⟩, -⟩ := idx_facts t
  have hx0 : (x 0).val < 1 := (x 0).isLt
  unfold iblk
  rw [View.read_apply]
  show V m c main_arg1 _ = m (c.tc.loc main_arg1) _
  unfold V
  congr 1
  funext a
  apply Fin.ext
  match a with
  | ⟨0, _⟩ => show win0_1.index t (0 : Fin 3) * 1 + 1 * (x 0).val = (k 0).val; rw [e0, hk0]; omega
  | ⟨1, _⟩ => show win0_1.index t (1 : Fin 3) * 4096 + 1 * (x 1).val = (k 1).val; rw [e1, hk1]; omega
  | ⟨2, _⟩ => show win0_1.index t (2 : Fin 3) * 4 + 1 * (x 2).val = (k 2).val; rw [e2, hk2]; omega

/-! ## The feature Gram matrix (output 0) -/

/-- At a batch's first tile the accumulator is zero plus the tile's contribution. -/
theorem startVV (c : Dev nD) (t : Fin cfg0.N) (h0 : t.val % 4 = 0) (u : Fin 1) (d : Fin 256) (e : Fin 256) :
    (outsAt0 m c t.val t.isLt).1 (ix3 u d e) = 0 + tileVV (iblk m c 0 t) d e := by
  have e1 := congrFun (vv_at_first m c t h0) (ix3 u d e)
  have e2 := vv_apply (iblk m c 0 t) (k0_pay3 (F := Ideal)) u d e
  rw [zeroVV_apply u d e] at e2
  exact e1.trans e2

/-- At a later tile it is what the point before left plus the tile's contribution. -/
theorem stepVV (c : Dev nD) (n n' : ℕ) (hn : n' = n + 1) (h : n < cfg0.N) (h' : n' < cfg0.N) (h0 : ¬n' % 4 = 0) (u : Fin 1) (d : Fin 256) (e : Fin 256) :
    (outsAt0 m c n' h').1 (ix3 u d e) = (outsAt0 m c n h).1 (ix3 u d e) + tileVV (iblk m c 0 ⟨n', h'⟩) d e := by
  subst hn
  exact (congrFun (vv_at_next m c ⟨n + 1, h'⟩ h0) (ix3 u d e)).trans (vv_apply (iblk m c 0 ⟨n + 1, h'⟩) (outsAt0 m c n h).1 u d e)

/-- Tile j of batch b contributes the sum over its 4096 rows of the whole arrays' terms. -/
theorem tileVV_eq (c : Dev nD) (b : Fin 16) (j : Fin 4) (t : Fin cfg0.N) (ht : t.val = 4 * b.val + j.val) (d : Fin 256) (e : Fin 256) :
    tileVV (iblk m c 0 t) d e = ∑ r : Fin 4096, unitEntry (rowOf (embOf m c) b (tileIdx j r)) d * unitEntry (rowOf (embOf m c) b (tileIdx j r)) e := by
  have hb := b.isLt
  have hj := j.isLt
  have hrow : ∀ r : Fin 4096, tileRow (iblk m c 0 t) r = rowOf (embOf m c) b (tileIdx j r) := fun r => funext fun e' =>
    emb_blk m c t (ix3 (0 : Fin 1) r e') (ix3 b (tileIdx j r) e') (by show b.val = t.val / 4; omega)
      (by show j.val * 4096 + r.val = t.val % 4 * 4096 + r.val; have : t.val % 4 = j.val := by omega
          rw [this]) rfl
  unfold tileVV
  exact Finset.sum_congr rfl fun r _ => by rw [hrow r]

/-- After a batch's fourth tile the accumulator holds the batch's whole Gram entry: zero plus the four tiles' sums in
    order is the sum over all 16384 rows. -/
theorem batchVV (c : Dev nD) (b : Fin 16) (t : Fin cfg0.N) (ht : t.val = 4 * b.val + 3) (u : Fin 1) (d : Fin 256) (e : Fin 256) :
    (outsAt0 m c t.val t.isLt).1 (ix3 u d e) = gvvAt (embOf m c) b d e := by
  have hN : cfg0.N = 64 := N_0
  have hb := b.isLt
  have h0 : 4 * b.val < cfg0.N := by omega
  have h1 : 4 * b.val + 1 < cfg0.N := by omega
  have h2 : 4 * b.val + 2 < cfg0.N := by omega
  have h3 : 4 * b.val + 3 < cfg0.N := by omega
  obtain rfl : t = ⟨4 * b.val + 3, h3⟩ := Fin.ext ht
  show (outsAt0 m c (4 * b.val + 3) h3).1 (ix3 u d e) = _
  rw [stepVV m c (4 * b.val + 2) (4 * b.val + 3) rfl h2 h3 (by omega) u d e,
    stepVV m c (4 * b.val + 1) (4 * b.val + 2) rfl h1 h2 (by omega) u d e,
    stepVV m c (4 * b.val) (4 * b.val + 1) rfl h0 h1 (by omega) u d e]
  have e0 := startVV m c ⟨4 * b.val, h0⟩ (by show 4 * b.val % 4 = 0; omega) u d e
  rw [show (outsAt0 m c (4 * b.val) h0).1 (ix3 u d e) = _ from e0,
    tileVV_eq m c b 0 ⟨4 * b.val, h0⟩ (by show 4 * b.val = 4 * b.val + 0; rfl) d e,
    tileVV_eq m c b 1 ⟨4 * b.val + 1, h1⟩ rfl d e,
    tileVV_eq m c b 2 ⟨4 * b.val + 2, h2⟩ rfl d e,
    tileVV_eq m c b 3 ⟨4 * b.val + 3, h3⟩ rfl d e]
  exact sum_as_chain (fun k => unitEntry (rowOf (embOf m c) b k) d * unitEntry (rowOf (embOf m c) b k) e)

/-- What a batch's last point writes back is that batch's block of the whole Gram array. -/
theorem flushedVV (c : Dev nD) (t : Fin cfg0.N) (hf : (cfg0.win 2).flush t = true) :
    (dats m 0 c).flushed 2 t = ((cfg0.win 2).blk t).view.read (Elt Ideal) (gvv (embOf m c)) := by
  have h3 : t.val % 4 = 3 := (flush0_2 t).mp hf
  have hN : t.val < 64 := lt_of_lt_of_eq t.isLt (show cfg0.N = 64 from N_0)
  obtain ⟨-, -, f2, f3, f4⟩ := idx_facts t
  obtain ⟨e0, e1, e2⟩ := f2
  have key : ∀ (y : S1x256x256.Idx) (k : S16x256x256.Idx), (k 0).val = t.val / 4 → (k 1).val = (y 1).val → (k 2).val = (y 2).val →
      (outsAt0 m c t.val t.isLt).1 y = (gvv (embOf m c)) k := by
    intro y k k0 k1 k2
    obtain ⟨u, d, e, rfl⟩ : ∃ (u : Fin 1) (d : Fin 256) (e : Fin 256), y = ix3 u d e := ⟨y 0, y 1, y 2, eq_ix3 y⟩
    have hk : k = ix3 (⟨t.val / 4, by omega⟩ : Fin 16) d e := funext fun a => Fin.ext (by
      match a with
      | ⟨0, _⟩ => exact k0
      | ⟨1, _⟩ => exact k1
      | ⟨2, _⟩ => exact k2)
    rw [hk, gvv_ix3]
    exact batchVV m c ⟨t.val / 4, by omega⟩ t (by show t.val = 4 * (t.val / 4) + 3; omega) u d e
  show (cfg0.win 2).cut (grid0.coords t) ((dats m 0 c).after 2 t) = _
  rw [after0_2]
  generalize gvv (embOf m c) = G at key ⊢
  funext j
  rw [View.read_apply]
  have hj0 : (j 0).val < 1 := (j 0).isLt
  have k0 : ((((cfg0.win 2).blk t).view.emb j) 0).val = t.val / 4 := by
    show win0_2.index t (0 : Fin 3) * 1 + 1 * (j 0).val = t.val / 4
    rw [e0]; omega
  have k1 : ((((cfg0.win 2).blk t).view.emb j) 1).val = (j 1).val := by
    show win0_2.index t (1 : Fin 3) * 256 + 1 * (j 1).val = (j 1).val
    rw [e1]; omega
  have k2 : ((((cfg0.win 2).blk t).view.emb j) 2).val = (j 2).val := by
    show win0_2.index t (2 : Fin 3) * 256 + 1 * (j 2).val = (j 2).val
    rw [e2]; omega
  exact key ((cfg0.win 2).xinj (grid0.coords t) j) (((cfg0.win 2).blk t).view.emb j) k0 k1 k2

/-- An index of the array is in point t's block iff each coordinate is in the block's range on its axis. -/
theorem mem_blkVV (t : Fin cfg0.N) (i : S16x256x256.Idx) :
    i ∈ ((cfg0.win 2).blk t).view.set ↔ ∀ a : Fin 3, win0_2.index t a * S1x256x256.size a ≤ (i a).val ∧ (i a).val < win0_2.index t a * S1x256x256.size a + S1x256x256.size a := by
  show i ∈ ((View.whole main_v0_0).slice (win0_2.rect t)).set ↔ _
  rw [View.set_slice_whole, Rect.mem_set_unit]
  exact Iff.rfl

/-- Every index of the array lies in the block some batch's last point writes back: batch (i 0)'s. -/
theorem coverVV (i : S16x256x256.Idx) : ∃ t : Fin cfg0.N, (cfg0.win 2).flush t = true ∧ i ∈ ((cfg0.win 2).blk t).view.set := by
  have hi0 : (i 0).val < 16 := (i 0).isLt
  have hi1 : (i 1).val < 256 := (i 1).isLt
  have hi2 : (i 2).val < 256 := (i 2).isLt
  have hN : cfg0.N = 64 := N_0
  have ht : 4 * (i 0).val + 3 < cfg0.N := by omega
  refine ⟨⟨4 * (i 0).val + 3, ht⟩, (flush0_2 _).mpr (by show (4 * (i 0).val + 3) % 4 = 3; omega), ?_⟩
  obtain ⟨-, -, f2, f3, f4⟩ := idx_facts ⟨4 * (i 0).val + 3, ht⟩
  obtain ⟨e0, e1, e2⟩ := f2
  rw [mem_blkVV]
  intro a
  match a with
  | ⟨0, _⟩ =>
    show win0_2.index ⟨4 * (i 0).val + 3, ht⟩ (0 : Fin 3) * 1 ≤ (i 0).val ∧ (i 0).val < win0_2.index ⟨4 * (i 0).val + 3, ht⟩ (0 : Fin 3) * 1 + 1
    rw [e0]; show (4 * (i 0).val + 3) / 4 * 1 ≤ (i 0).val ∧ (i 0).val < (4 * (i 0).val + 3) / 4 * 1 + 1; omega
  | ⟨1, _⟩ =>
    show win0_2.index ⟨4 * (i 0).val + 3, ht⟩ (1 : Fin 3) * 256 ≤ (i 1).val ∧ (i 1).val < win0_2.index ⟨4 * (i 0).val + 3, ht⟩ (1 : Fin 3) * 256 + 256
    rw [e1]; omega
  | ⟨2, _⟩ =>
    show win0_2.index ⟨4 * (i 0).val + 3, ht⟩ (2 : Fin 3) * 256 ≤ (i 2).val ∧ (i 2).val < win0_2.index ⟨4 * (i 0).val + 3, ht⟩ (2 : Fin 3) * 256 + 256
    rw [e2]; omega

/-- So after the region the array holds the whole Gram array. -/
theorem finalVV (c : Dev nD) : (dats m 0 c).arrAt 2 cfg0.N = gvv (embOf m c) :=
  (dats m 0 c).arrAt_eq_of_cover 2 (gvv (embOf m c)) (flushedVV m c) (coverVV)

/-! ## The mixed Gram matrix (output 1) -/

/-- At a batch's first tile the accumulator is zero plus the tile's contribution. -/
theorem startVY (c : Dev nD) (t : Fin cfg0.N) (h0 : t.val % 4 = 0) (u : Fin 1) (d : Fin 256) (s : Fin 4) :
    (outsAt0 m c t.val t.isLt).2.1 (ix3 u d s) = 0 + tileVY (iblk m c 0 t) (iblk m c 1 t) d s := by
  have e1 := congrFun (vy_at_first m c t h0) (ix3 u d s)
  have e2 := vy_apply (iblk m c 0 t) (iblk m c 1 t) (k0_pay4 (F := Ideal)) u d s
  rw [zeroVY_apply u d s] at e2
  exact e1.trans e2

/-- At a later tile it is what the point before left plus the tile's contribution. -/
theorem stepVY (c : Dev nD) (n n' : ℕ) (hn : n' = n + 1) (h : n < cfg0.N) (h' : n' < cfg0.N) (h0 : ¬n' % 4 = 0) (u : Fin 1) (d : Fin 256) (s : Fin 4) :
    (outsAt0 m c n' h').2.1 (ix3 u d s) = (outsAt0 m c n h).2.1 (ix3 u d s) + tileVY (iblk m c 0 ⟨n', h'⟩) (iblk m c 1 ⟨n', h'⟩) d s := by
  subst hn
  exact (congrFun (vy_at_next m c ⟨n + 1, h'⟩ h0) (ix3 u d s)).trans (vy_apply (iblk m c 0 ⟨n + 1, h'⟩) (iblk m c 1 ⟨n + 1, h'⟩) (outsAt0 m c n h).2.1 u d s)

/-- Tile j of batch b contributes the sum over its 4096 rows of the whole arrays' terms. -/
theorem tileVY_eq (c : Dev nD) (b : Fin 16) (j : Fin 4) (t : Fin cfg0.N) (ht : t.val = 4 * b.val + j.val) (d : Fin 256) (s : Fin 4) :
    tileVY (iblk m c 0 t) (iblk m c 1 t) d s = ∑ r : Fin 4096, unitEntry (rowOf (embOf m c) b (tileIdx j r)) d * lblOf m c (ix3 b (tileIdx j r) s) := by
  have hb := b.isLt
  have hj := j.isLt
  have hrow : ∀ r : Fin 4096, tileRow (iblk m c 0 t) r = rowOf (embOf m c) b (tileIdx j r) := fun r => funext fun e' =>
    emb_blk m c t (ix3 (0 : Fin 1) r e') (ix3 b (tileIdx j r) e') (by show b.val = t.val / 4; omega)
      (by show j.val * 4096 + r.val = t.val % 4 * 4096 + r.val; have : t.val % 4 = j.val := by omega
          rw [this]) rfl
  have hlbl : ∀ (r : Fin 4096) (s' : Fin 4), (iblk m c 1 t : Vec Ideal S1x4096x4 .f32) (ix3 (0 : Fin 1) r s') = lblOf m c (ix3 b (tileIdx j r) s') := fun r s' =>
    lbl_blk m c t (ix3 (0 : Fin 1) r s') (ix3 b (tileIdx j r) s') (by show b.val = t.val / 4; omega)
      (by show j.val * 4096 + r.val = t.val % 4 * 4096 + r.val; have : t.val % 4 = j.val := by omega
          rw [this]) rfl
  unfold tileVY
  exact Finset.sum_congr rfl fun r _ => by rw [hrow r, hlbl r s]

/-- After a batch's fourth tile the accumulator holds the batch's whole Gram entry: zero plus the four tiles' sums in
    order is the sum over all 16384 rows. -/
theorem batchVY (c : Dev nD) (b : Fin 16) (t : Fin cfg0.N) (ht : t.val = 4 * b.val + 3) (u : Fin 1) (d : Fin 256) (s : Fin 4) :
    (outsAt0 m c t.val t.isLt).2.1 (ix3 u d s) = gvyAt (embOf m c) (lblOf m c) b d s := by
  have hN : cfg0.N = 64 := N_0
  have hb := b.isLt
  have h0 : 4 * b.val < cfg0.N := by omega
  have h1 : 4 * b.val + 1 < cfg0.N := by omega
  have h2 : 4 * b.val + 2 < cfg0.N := by omega
  have h3 : 4 * b.val + 3 < cfg0.N := by omega
  obtain rfl : t = ⟨4 * b.val + 3, h3⟩ := Fin.ext ht
  show (outsAt0 m c (4 * b.val + 3) h3).2.1 (ix3 u d s) = _
  rw [stepVY m c (4 * b.val + 2) (4 * b.val + 3) rfl h2 h3 (by omega) u d s,
    stepVY m c (4 * b.val + 1) (4 * b.val + 2) rfl h1 h2 (by omega) u d s,
    stepVY m c (4 * b.val) (4 * b.val + 1) rfl h0 h1 (by omega) u d s]
  have e0 := startVY m c ⟨4 * b.val, h0⟩ (by show 4 * b.val % 4 = 0; omega) u d s
  rw [show (outsAt0 m c (4 * b.val) h0).2.1 (ix3 u d s) = _ from e0,
    tileVY_eq m c b 0 ⟨4 * b.val, h0⟩ (by show 4 * b.val = 4 * b.val + 0; rfl) d s,
    tileVY_eq m c b 1 ⟨4 * b.val + 1, h1⟩ rfl d s,
    tileVY_eq m c b 2 ⟨4 * b.val + 2, h2⟩ rfl d s,
    tileVY_eq m c b 3 ⟨4 * b.val + 3, h3⟩ rfl d s]
  exact sum_as_chain (fun k => unitEntry (rowOf (embOf m c) b k) d * lblOf m c (ix3 b k s))

/-- What a batch's last point writes back is that batch's block of the whole Gram array. -/
theorem flushedVY (c : Dev nD) (t : Fin cfg0.N) (hf : (cfg0.win 3).flush t = true) :
    (dats m 0 c).flushed 3 t = ((cfg0.win 3).blk t).view.read (Elt Ideal) (gvy (embOf m c) (lblOf m c)) := by
  have h3 : t.val % 4 = 3 := (flush0_3 t).mp hf
  have hN : t.val < 64 := lt_of_lt_of_eq t.isLt (show cfg0.N = 64 from N_0)
  obtain ⟨-, -, f2, f3, f4⟩ := idx_facts t
  obtain ⟨e0, e1, e2⟩ := f3
  have key : ∀ (y : S1x256x4.Idx) (k : S16x256x4.Idx), (k 0).val = t.val / 4 → (k 1).val = (y 1).val → (k 2).val = (y 2).val →
      (outsAt0 m c t.val t.isLt).2.1 y = (gvy (embOf m c) (lblOf m c)) k := by
    intro y k k0 k1 k2
    obtain ⟨u, d, s, rfl⟩ : ∃ (u : Fin 1) (d : Fin 256) (s : Fin 4), y = ix3 u d s := ⟨y 0, y 1, y 2, eq_ix3 y⟩
    have hk : k = ix3 (⟨t.val / 4, by omega⟩ : Fin 16) d s := funext fun a => Fin.ext (by
      match a with
      | ⟨0, _⟩ => exact k0
      | ⟨1, _⟩ => exact k1
      | ⟨2, _⟩ => exact k2)
    rw [hk, gvy_ix3]
    exact batchVY m c ⟨t.val / 4, by omega⟩ t (by show t.val = 4 * (t.val / 4) + 3; omega) u d s
  show (cfg0.win 3).cut (grid0.coords t) ((dats m 0 c).after 3 t) = _
  rw [after0_3]
  generalize gvy (embOf m c) (lblOf m c) = G at key ⊢
  funext j
  rw [View.read_apply]
  have hj0 : (j 0).val < 1 := (j 0).isLt
  have k0 : ((((cfg0.win 3).blk t).view.emb j) 0).val = t.val / 4 := by
    show win0_3.index t (0 : Fin 3) * 1 + 1 * (j 0).val = t.val / 4
    rw [e0]; omega
  have k1 : ((((cfg0.win 3).blk t).view.emb j) 1).val = (j 1).val := by
    show win0_3.index t (1 : Fin 3) * 256 + 1 * (j 1).val = (j 1).val
    rw [e1]; omega
  have k2 : ((((cfg0.win 3).blk t).view.emb j) 2).val = (j 2).val := by
    show win0_3.index t (2 : Fin 3) * 4 + 1 * (j 2).val = (j 2).val
    rw [e2]; omega
  exact key ((cfg0.win 3).xinj (grid0.coords t) j) (((cfg0.win 3).blk t).view.emb j) k0 k1 k2

/-- An index of the array is in point t's block iff each coordinate is in the block's range on its axis. -/
theorem mem_blkVY (t : Fin cfg0.N) (i : S16x256x4.Idx) :
    i ∈ ((cfg0.win 3).blk t).view.set ↔ ∀ a : Fin 3, win0_3.index t a * S1x256x4.size a ≤ (i a).val ∧ (i a).val < win0_3.index t a * S1x256x4.size a + S1x256x4.size a := by
  show i ∈ ((View.whole main_v0_1).slice (win0_3.rect t)).set ↔ _
  rw [View.set_slice_whole, Rect.mem_set_unit]
  exact Iff.rfl

/-- Every index of the array lies in the block some batch's last point writes back: batch (i 0)'s. -/
theorem coverVY (i : S16x256x4.Idx) : ∃ t : Fin cfg0.N, (cfg0.win 3).flush t = true ∧ i ∈ ((cfg0.win 3).blk t).view.set := by
  have hi0 : (i 0).val < 16 := (i 0).isLt
  have hi1 : (i 1).val < 256 := (i 1).isLt
  have hi2 : (i 2).val < 4 := (i 2).isLt
  have hN : cfg0.N = 64 := N_0
  have ht : 4 * (i 0).val + 3 < cfg0.N := by omega
  refine ⟨⟨4 * (i 0).val + 3, ht⟩, (flush0_3 _).mpr (by show (4 * (i 0).val + 3) % 4 = 3; omega), ?_⟩
  obtain ⟨-, -, f2, f3, f4⟩ := idx_facts ⟨4 * (i 0).val + 3, ht⟩
  obtain ⟨e0, e1, e2⟩ := f3
  rw [mem_blkVY]
  intro a
  match a with
  | ⟨0, _⟩ =>
    show win0_3.index ⟨4 * (i 0).val + 3, ht⟩ (0 : Fin 3) * 1 ≤ (i 0).val ∧ (i 0).val < win0_3.index ⟨4 * (i 0).val + 3, ht⟩ (0 : Fin 3) * 1 + 1
    rw [e0]; show (4 * (i 0).val + 3) / 4 * 1 ≤ (i 0).val ∧ (i 0).val < (4 * (i 0).val + 3) / 4 * 1 + 1; omega
  | ⟨1, _⟩ =>
    show win0_3.index ⟨4 * (i 0).val + 3, ht⟩ (1 : Fin 3) * 256 ≤ (i 1).val ∧ (i 1).val < win0_3.index ⟨4 * (i 0).val + 3, ht⟩ (1 : Fin 3) * 256 + 256
    rw [e1]; omega
  | ⟨2, _⟩ =>
    show win0_3.index ⟨4 * (i 0).val + 3, ht⟩ (2 : Fin 3) * 4 ≤ (i 2).val ∧ (i 2).val < win0_3.index ⟨4 * (i 0).val + 3, ht⟩ (2 : Fin 3) * 4 + 4
    rw [e2]; omega

/-- So after the region the array holds the whole Gram array. -/
theorem finalVY (c : Dev nD) : (dats m 0 c).arrAt 3 cfg0.N = gvy (embOf m c) (lblOf m c) :=
  (dats m 0 c).arrAt_eq_of_cover 3 (gvy (embOf m c) (lblOf m c)) (flushedVY m c) (coverVY)

/-! ## The label Gram matrix (output 2) -/

/-- At a batch's first tile the accumulator is zero plus the tile's contribution. -/
theorem startYY (c : Dev nD) (t : Fin cfg0.N) (h0 : t.val % 4 = 0) (u : Fin 1) (s : Fin 4) (v : Fin 4) :
    (outsAt0 m c t.val t.isLt).2.2 (ix3 u s v) = 0 + tileYY (iblk m c 1 t) s v := by
  have e1 := congrFun (yy_at_first m c t h0) (ix3 u s v)
  have e2 := yy_apply (iblk m c 1 t) (k0_pay5 (F := Ideal)) u s v
  rw [zeroYY_apply u s v] at e2
  exact e1.trans e2

/-- At a later tile it is what the point before left plus the tile's contribution. -/
theorem stepYY (c : Dev nD) (n n' : ℕ) (hn : n' = n + 1) (h : n < cfg0.N) (h' : n' < cfg0.N) (h0 : ¬n' % 4 = 0) (u : Fin 1) (s : Fin 4) (v : Fin 4) :
    (outsAt0 m c n' h').2.2 (ix3 u s v) = (outsAt0 m c n h).2.2 (ix3 u s v) + tileYY (iblk m c 1 ⟨n', h'⟩) s v := by
  subst hn
  exact (congrFun (yy_at_next m c ⟨n + 1, h'⟩ h0) (ix3 u s v)).trans (yy_apply (iblk m c 1 ⟨n + 1, h'⟩) (outsAt0 m c n h).2.2 u s v)

/-- Tile j of batch b contributes the sum over its 4096 rows of the whole arrays' terms. -/
theorem tileYY_eq (c : Dev nD) (b : Fin 16) (j : Fin 4) (t : Fin cfg0.N) (ht : t.val = 4 * b.val + j.val) (s : Fin 4) (v : Fin 4) :
    tileYY (iblk m c 1 t) s v = ∑ r : Fin 4096, lblOf m c (ix3 b (tileIdx j r) s) * lblOf m c (ix3 b (tileIdx j r) v) := by
  have hb := b.isLt
  have hj := j.isLt
  have hlbl : ∀ (r : Fin 4096) (s' : Fin 4), (iblk m c 1 t : Vec Ideal S1x4096x4 .f32) (ix3 (0 : Fin 1) r s') = lblOf m c (ix3 b (tileIdx j r) s') := fun r s' =>
    lbl_blk m c t (ix3 (0 : Fin 1) r s') (ix3 b (tileIdx j r) s') (by show b.val = t.val / 4; omega)
      (by show j.val * 4096 + r.val = t.val % 4 * 4096 + r.val; have : t.val % 4 = j.val := by omega
          rw [this]) rfl
  unfold tileYY
  exact Finset.sum_congr rfl fun r _ => by rw [hlbl r s, hlbl r v]

/-- After a batch's fourth tile the accumulator holds the batch's whole Gram entry: zero plus the four tiles' sums in
    order is the sum over all 16384 rows. -/
theorem batchYY (c : Dev nD) (b : Fin 16) (t : Fin cfg0.N) (ht : t.val = 4 * b.val + 3) (u : Fin 1) (s : Fin 4) (v : Fin 4) :
    (outsAt0 m c t.val t.isLt).2.2 (ix3 u s v) = gyyAt (lblOf m c) b s v := by
  have hN : cfg0.N = 64 := N_0
  have hb := b.isLt
  have h0 : 4 * b.val < cfg0.N := by omega
  have h1 : 4 * b.val + 1 < cfg0.N := by omega
  have h2 : 4 * b.val + 2 < cfg0.N := by omega
  have h3 : 4 * b.val + 3 < cfg0.N := by omega
  obtain rfl : t = ⟨4 * b.val + 3, h3⟩ := Fin.ext ht
  show (outsAt0 m c (4 * b.val + 3) h3).2.2 (ix3 u s v) = _
  rw [stepYY m c (4 * b.val + 2) (4 * b.val + 3) rfl h2 h3 (by omega) u s v,
    stepYY m c (4 * b.val + 1) (4 * b.val + 2) rfl h1 h2 (by omega) u s v,
    stepYY m c (4 * b.val) (4 * b.val + 1) rfl h0 h1 (by omega) u s v]
  have e0 := startYY m c ⟨4 * b.val, h0⟩ (by show 4 * b.val % 4 = 0; omega) u s v
  rw [show (outsAt0 m c (4 * b.val) h0).2.2 (ix3 u s v) = _ from e0,
    tileYY_eq m c b 0 ⟨4 * b.val, h0⟩ (by show 4 * b.val = 4 * b.val + 0; rfl) s v,
    tileYY_eq m c b 1 ⟨4 * b.val + 1, h1⟩ rfl s v,
    tileYY_eq m c b 2 ⟨4 * b.val + 2, h2⟩ rfl s v,
    tileYY_eq m c b 3 ⟨4 * b.val + 3, h3⟩ rfl s v]
  exact sum_as_chain (fun k => lblOf m c (ix3 b k s) * lblOf m c (ix3 b k v))

/-- What a batch's last point writes back is that batch's block of the whole Gram array. -/
theorem flushedYY (c : Dev nD) (t : Fin cfg0.N) (hf : (cfg0.win 4).flush t = true) :
    (dats m 0 c).flushed 4 t = ((cfg0.win 4).blk t).view.read (Elt Ideal) (gyy (lblOf m c)) := by
  have h3 : t.val % 4 = 3 := (flush0_4 t).mp hf
  have hN : t.val < 64 := lt_of_lt_of_eq t.isLt (show cfg0.N = 64 from N_0)
  obtain ⟨-, -, f2, f3, f4⟩ := idx_facts t
  obtain ⟨e0, e1, e2⟩ := f4
  have key : ∀ (y : S1x4x4.Idx) (k : S16x4x4.Idx), (k 0).val = t.val / 4 → (k 1).val = (y 1).val → (k 2).val = (y 2).val →
      (outsAt0 m c t.val t.isLt).2.2 y = (gyy (lblOf m c)) k := by
    intro y k k0 k1 k2
    obtain ⟨u, s, v, rfl⟩ : ∃ (u : Fin 1) (s : Fin 4) (v : Fin 4), y = ix3 u s v := ⟨y 0, y 1, y 2, eq_ix3 y⟩
    have hk : k = ix3 (⟨t.val / 4, by omega⟩ : Fin 16) s v := funext fun a => Fin.ext (by
      match a with
      | ⟨0, _⟩ => exact k0
      | ⟨1, _⟩ => exact k1
      | ⟨2, _⟩ => exact k2)
    rw [hk, gyy_ix3]
    exact batchYY m c ⟨t.val / 4, by omega⟩ t (by show t.val = 4 * (t.val / 4) + 3; omega) u s v
  show (cfg0.win 4).cut (grid0.coords t) ((dats m 0 c).after 4 t) = _
  rw [after0_4]
  generalize gyy (lblOf m c) = G at key ⊢
  funext j
  rw [View.read_apply]
  have hj0 : (j 0).val < 1 := (j 0).isLt
  have k0 : ((((cfg0.win 4).blk t).view.emb j) 0).val = t.val / 4 := by
    show win0_4.index t (0 : Fin 3) * 1 + 1 * (j 0).val = t.val / 4
    rw [e0]; omega
  have k1 : ((((cfg0.win 4).blk t).view.emb j) 1).val = (j 1).val := by
    show win0_4.index t (1 : Fin 3) * 4 + 1 * (j 1).val = (j 1).val
    rw [e1]; omega
  have k2 : ((((cfg0.win 4).blk t).view.emb j) 2).val = (j 2).val := by
    show win0_4.index t (2 : Fin 3) * 4 + 1 * (j 2).val = (j 2).val
    rw [e2]; omega
  exact key ((cfg0.win 4).xinj (grid0.coords t) j) (((cfg0.win 4).blk t).view.emb j) k0 k1 k2

/-- An index of the array is in point t's block iff each coordinate is in the block's range on its axis. -/
theorem mem_blkYY (t : Fin cfg0.N) (i : S16x4x4.Idx) :
    i ∈ ((cfg0.win 4).blk t).view.set ↔ ∀ a : Fin 3, win0_4.index t a * S1x4x4.size a ≤ (i a).val ∧ (i a).val < win0_4.index t a * S1x4x4.size a + S1x4x4.size a := by
  show i ∈ ((View.whole main_v0_2).slice (win0_4.rect t)).set ↔ _
  rw [View.set_slice_whole, Rect.mem_set_unit]
  exact Iff.rfl

/-- Every index of the array lies in the block some batch's last point writes back: batch (i 0)'s. -/
theorem coverYY (i : S16x4x4.Idx) : ∃ t : Fin cfg0.N, (cfg0.win 4).flush t = true ∧ i ∈ ((cfg0.win 4).blk t).view.set := by
  have hi0 : (i 0).val < 16 := (i 0).isLt
  have hi1 : (i 1).val < 4 := (i 1).isLt
  have hi2 : (i 2).val < 4 := (i 2).isLt
  have hN : cfg0.N = 64 := N_0
  have ht : 4 * (i 0).val + 3 < cfg0.N := by omega
  refine ⟨⟨4 * (i 0).val + 3, ht⟩, (flush0_4 _).mpr (by show (4 * (i 0).val + 3) % 4 = 3; omega), ?_⟩
  obtain ⟨-, -, f2, f3, f4⟩ := idx_facts ⟨4 * (i 0).val + 3, ht⟩
  obtain ⟨e0, e1, e2⟩ := f4
  rw [mem_blkYY]
  intro a
  match a with
  | ⟨0, _⟩ =>
    show win0_4.index ⟨4 * (i 0).val + 3, ht⟩ (0 : Fin 3) * 1 ≤ (i 0).val ∧ (i 0).val < win0_4.index ⟨4 * (i 0).val + 3, ht⟩ (0 : Fin 3) * 1 + 1
    rw [e0]; show (4 * (i 0).val + 3) / 4 * 1 ≤ (i 0).val ∧ (i 0).val < (4 * (i 0).val + 3) / 4 * 1 + 1; omega
  | ⟨1, _⟩ =>
    show win0_4.index ⟨4 * (i 0).val + 3, ht⟩ (1 : Fin 3) * 4 ≤ (i 1).val ∧ (i 1).val < win0_4.index ⟨4 * (i 0).val + 3, ht⟩ (1 : Fin 3) * 4 + 4
    rw [e1]; omega
  | ⟨2, _⟩ =>
    show win0_4.index ⟨4 * (i 0).val + 3, ht⟩ (2 : Fin 3) * 4 ≤ (i 2).val ∧ (i 2).val < win0_4.index ⟨4 * (i 0).val + 3, ht⟩ (2 : Fin 3) * 4 + 4
    rw [e2]; omega

/-- So after the region the array holds the whole Gram array. -/
theorem finalYY (c : Dev nD) : (dats m 0 c).arrAt 4 cfg0.N = gyy (lblOf m c) :=
  (dats m 0 c).arrAt_eq_of_cover 4 (gyy (lblOf m c)) (flushedYY m c) (coverYY)

end Cert.KernelIdeal.Gram

end
-- ==== Proof.GramTail.lean ====
/-
  The scalar both programs compute from the three Gram arrays.

  For each batch: the sum of the squared entries of the feature Gram matrix, minus twice that of the mixed matrix, plus
  that of the label matrix, over the square of the row count; then the mean over the sixteen batches. Both programs
  print exactly this list of operations with the same constants, so it is stated once and never opened.
-/
import proofs.«116870_j17386027614820_1_alg».proof.Proof.Gen.KernelIdeal.Frame
import proofs.«116870_j17386027614820_1_alg».proof.Proof.Gen.ReferenceIdeal.Read
import Idealize.ShloMosaic.Lib.StableHlo.Run
import Idealize.ShloMosaic.Lib.Pipeline.Value

noncomputable section

open Idealize.ShloMosaic Idealize.ShloMosaic.TcCoe Idealize.SL.Sem
open Idealize.ShloMosaic.Pipeline (Dat)

namespace Cert.KernelIdeal.Gram

open Cert.KernelIdeal Cert.KernelIdeal.Gen

variable {F : FTy → Type} [FloatOps F]

/-- The scalar computed from the three Gram arrays: per batch (‖Gvv‖² − 2 ‖Gvy‖² + ‖Gyy‖²) / 16384², then the mean
    over the batches. -/
def tail (g0 : (⟨S16x256x256, .f32⟩ : BufTy).Contents (Elt F)) (g1 : (⟨S16x256x4, .f32⟩ : BufTy).Contents (Elt F))
    (g2 : (⟨S16x4x4, .f32⟩ : BufTy).Contents (Elt F)) : (⟨S_, .f32⟩ : BufTy).Contents (Elt F) :=
  Host.divf (Host.reduceAdd (Host.divf (addf (subf
      (Host.reduceAdd (mulf g0 g0) (constant S_ .f32 0x00000000#32) reducesTo_S16x256x256_S16_d1_2 h_S_)
      (mulf (broadcastInDim S16 ![] bcast_S_S16 (constant S_ .f32 0x40000000#32))
        (Host.reduceAdd (mulf g1 g1) (constant S_ .f32 0x00000000#32) reducesTo_S16x256x4_S16_d1_2 h_S_)))
      (Host.reduceAdd (mulf g2 g2) (constant S_ .f32 0x00000000#32) reducesTo_S16x4x4_S16_d1_2 h_S_))
      (broadcastInDim S16 ![] bcast_S_S16 (constant S_ .f32 0x4D800000#32)))
    (constant S_ .f32 0x00000000#32) reducesTo_S16_S_d0 h_S_) (constant S_ .f32 0x41800000#32)

/-- The reference's result is that scalar of its three einsum products. -/
theorem ref_tail (X : (⟨Cert.ReferenceIdeal.S16x16384x256, .f32⟩ : BufTy).Contents (Elt F))
    (Y : (⟨Cert.ReferenceIdeal.S16x16384x4, .f32⟩ : BufTy).Contents (Elt F)) :
    Cert.ReferenceIdeal.Read.val_main_v21 (F := F) X Y
      = tail (Cert.ReferenceIdeal.Read.val_main_v5 (F := F) X) (Cert.ReferenceIdeal.Read.val_main_v6 (F := F) X Y)
          (Cert.ReferenceIdeal.Read.val_main_v7 (F := F) Y) := rfl

variable (m : (ℓ : Loc nD τ sig) → Buf (Elt F) ℓ)

/-- The kernel's result is that scalar of the three arrays its region leaves: the operations after the region read the
    region's output arrays and nothing else of what it wrote. -/
theorem ker_tail (c : Dev nD) :
    Pipeline.afterTail₀ cfgs (dats m) 0 (V0 m) [hostOps1] c main_v14
      = tail ((dats m 0 c).arrAt 2 cfg0.N) ((dats m 0 c).arrAt 3 cfg0.N) ((dats m 0 c).arrAt 4 cfg0.N) := by
  have a2 : Pipeline.withArrays (cfgs 0).spec c (V0 m c) (fun w => (dats m 0 c).arrAt w (cfgs 0).N) (Proc.devRef .tc main_v0_0)
      = (dats m 0 c).arrAt 2 cfg0.N := Pipeline.withArrays_arr spec0 launch0.win.arr_inj c _ _ 2
  have a3 : Pipeline.withArrays (cfgs 0).spec c (V0 m c) (fun w => (dats m 0 c).arrAt w (cfgs 0).N) (Proc.devRef .tc main_v0_1)
      = (dats m 0 c).arrAt 3 cfg0.N := Pipeline.withArrays_arr spec0 launch0.win.arr_inj c _ _ 3
  have a4 : Pipeline.withArrays (cfgs 0).spec c (V0 m c) (fun w => (dats m 0 c).arrAt w (cfgs 0).N) (Proc.devRef .tc main_v0_2)
      = (dats m 0 c).arrAt 4 cfg0.N := Pipeline.withArrays_arr spec0 launch0.win.arr_inj c _ _ 4
  unfold Pipeline.afterTail₀
  show StableHlo.after hostOps1 _ (Proc.devRef .tc main_v14) = _
  after_results
  have h := congr (congr (congrArg (tail (F := F)) a2) a3) a4
  exact h

end Cert.KernelIdeal.Gram

end
-- ==== Proof.GramRun.lean ====
/-
  The idealized kernel's run, with its result named.

  Every weakly fair execution of the kernel's program ends with the result at the scalar of the three Gram arrays of
  the launch-time embeddings and labels, and with both argument arrays as they were.
-/
import proofs.«116870_j17386027614820_1_alg».proof.Proof.GramAccum
import proofs.«116870_j17386027614820_1_alg».proof.Proof.GramTail

noncomputable section

open Idealize.ShloMosaic Idealize.ShloMosaic.TcCoe Idealize.SL.Sem
open Idealize.ShloMosaic.Pipeline (Dat)

namespace Cert.KernelIdeal.Gram

open Cert.KernelIdeal Cert.KernelIdeal.Gen Cert.GramSpec

variable (m : (ℓ : Loc nD τ sig) → Buf (Elt Ideal) ℓ) (ρ : Dev nD → PrngReg)

/-- The result: the scalar of the three Gram arrays of what core c's memory holds at launch. -/
abbrev result (c : Dev nD) : Buf (Elt Ideal) ((c.tc : Thread nD τ).loc main_v14) :=
  tail (F := Ideal) (gvv (embOf m c)) (gvy (embOf m c) (lblOf m c)) (gyy (lblOf m c))

/-- The result buffer is no window's array, so the run's post gives it at what the operations after the region compute. -/
theorem result_mem : main_v14 ∈ Pipeline.restRefs sig (cfgs 0).spec := by decide

/-- The run, read. -/
theorem run : θ_run defs (onTc (τ := τ) (main (F := Ideal))) ⟨m, fun _ => 0, ρ⟩ fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v14 result_mem).trans ((ker_tail m c).trans (by rw [finalVV, finalVY, finalYY])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Gram

end
-- ==== Proof.GramRef.lean ====
/-
  The reference's three einsum products are the three Gram arrays of the specification.

  The reference normalizes every row by the larger of its Euclidean length and the floor — the row's sum of squares
  taken from a zero start, which adds nothing —, then contracts the 16384 rows of each batch: normalized rows with
  themselves, normalized rows with the label rows, label rows with themselves.
-/
import proofs.«116870_j17386027614820_1_alg».proof.Proof.Gen.ReferenceIdeal.Read
import proofs.«116870_j17386027614820_1_alg».proof.Proof.GramSpec
import Idealize.ShloMosaic.PureOps.Ideal.Laws

noncomputable section

open Idealize.ShloMosaic Idealize.ShloMosaic.ValueIdx

namespace Cert.ReferenceIdeal.Gram

open Cert.ReferenceIdeal Cert.ReferenceIdeal.Read Cert.GramSpec

/-- The reference's normalized array at (b, k, d): row k of batch b, entry d, over the larger of the row's length
    and the floor. -/
theorem unit_apply (X : Emb) (b : Fin 16) (k : Fin 16384) (d : Fin 256) :
    val_main_v4 (F := Ideal) X (ix3 b k d) = unitEntry (rowOf X b k) d := by
  have hidx : ∀ e : Fin 256, idx_main_call0_v1 (idx_main_call0_v2 (idx_main_v3 (ix3 b k d))) e = ix3 b k e := fun e =>
    funext fun a => Fin.ext (by match a with | ⟨0, _⟩ => rfl | ⟨1, _⟩ => rfl | ⟨2, _⟩ => rfl)
  rw [val_main_v4_apply, val_main_v3_apply, val_main_v2_apply, val_main_v0_apply, val_main_v1_apply, val_main_cst_apply,
    val_main_call0_v2_apply, val_main_call0_v1_apply, val_main_call0_cst_apply]
  simp only [val_main_call0_v0_apply, hidx]
  show Ideal.div (X (ix3 b k d)) (max (Ideal.sqrt (Ideal.ofBits .f32 0x00000000#32 + ∑ e : Fin 256, X (ix3 b k e) * X (ix3 b k e)))
    (Ideal.ofBits .f32 0x2B8CBCCC#32)) = _
  rw [Ideal.ofBits_zero_f32, zero_add]
  rfl

/-- The first einsum is the feature Gram array. -/
theorem vv_eq (X : Emb) : val_main_v5 (F := Ideal) X = gvv X := by
  funext i
  obtain ⟨b, d, e, rfl⟩ : ∃ (b : Fin 16) (d e : Fin 256), i = ix3 b d e := ⟨i 0, i 1, i 2, eq_ix3 i⟩
  rw [val_main_v5_apply, gvv_ix3]
  unfold gvvAt
  refine Finset.sum_congr rfl fun k _ => ?_
  have hl : lidx_main_v5 (ix3 b d e) k = ix3 b k d := funext fun a => Fin.ext (by match a with | ⟨0, _⟩ => rfl | ⟨1, _⟩ => rfl | ⟨2, _⟩ => rfl)
  have hr : ridx_main_v5 (ix3 b d e) k = ix3 b k e := funext fun a => Fin.ext (by match a with | ⟨0, _⟩ => rfl | ⟨1, _⟩ => rfl | ⟨2, _⟩ => rfl)
  rw [hl, hr, unit_apply, unit_apply]

/-- The second is the mixed Gram array. -/
theorem vy_eq (X : Emb) (Y : Lbl) : val_main_v6 (F := Ideal) X Y = gvy X Y := by
  funext i
  obtain ⟨b, d, s, rfl⟩ : ∃ (b : Fin 16) (d : Fin 256) (s : Fin 4), i = ix3 b d s := ⟨i 0, i 1, i 2, eq_ix3 i⟩
  rw [val_main_v6_apply, gvy_ix3]
  unfold gvyAt
  refine Finset.sum_congr rfl fun k _ => ?_
  have hl : lidx_main_v6 (ix3 b d s) k = ix3 b k d := funext fun a => Fin.ext (by match a with | ⟨0, _⟩ => rfl | ⟨1, _⟩ => rfl | ⟨2, _⟩ => rfl)
  have hr : ridx_main_v6 (ix3 b d s) k = ix3 b k s := funext fun a => Fin.ext (by match a with | ⟨0, _⟩ => rfl | ⟨1, _⟩ => rfl | ⟨2, _⟩ => rfl)
  rw [hl, hr, unit_apply]

/-- The third is the label Gram array. -/
theorem yy_eq (Y : Lbl) : val_main_v7 (F := Ideal) Y = gyy Y := by
  funext i
  obtain ⟨b, s, v, rfl⟩ : ∃ (b : Fin 16) (s v : Fin 4), i = ix3 b s v := ⟨i 0, i 1, i 2, eq_ix3 i⟩
  rw [val_main_v7_apply, gyy_ix3]
  unfold gyyAt
  refine Finset.sum_congr rfl fun k _ => ?_
  have hl : lidx_main_v7 (ix3 b s v) k = ix3 b k s := funext fun a => Fin.ext (by match a with | ⟨0, _⟩ => rfl | ⟨1, _⟩ => rfl | ⟨2, _⟩ => rfl)
  have hr : ridx_main_v7 (ix3 b s v) k = ix3 b k v := funext fun a => Fin.ext (by match a with | ⟨0, _⟩ => rfl | ⟨1, _⟩ => rfl | ⟨2, _⟩ => rfl)
  rw [hl, hr]

end Cert.ReferenceIdeal.Gram

end
-- ==== Proof.lean ====
/-
  The kernel streams each batch's 16384 rows of embeddings and labels through four tiles of 4096 rows, normalizes every
  embedding row by the larger of its Euclidean length and a small floor, and accumulates three Gram matrices per batch
  — normalized rows with themselves, normalized rows with label rows, label rows with themselves — tile by tile from
  zero; the reference normalizes the same way and contracts all 16384 rows at once. Over the extended reals a sum may
  be regrouped freely, so the accumulated matrices are the contracted ones, and both programs then apply the same
  operations to them: per batch the squared Frobenius norms combined as ‖Gvv‖² − 2 ‖Gvy‖² + ‖Gyy‖² over 16384², and the
  mean over the batches. No input needs to be finite for this: only commutativity and associativity of addition, and
  that zero is neutral, are used.
-/
import proofs.«116870_j17386027614820_1_alg».proof.Defs
import proofs.«116870_j17386027614820_1_alg».proof.Proof.Gen.Kernel
import proofs.«116870_j17386027614820_1_alg».proof.Proof.Gen.Kernel.Skeleton
import proofs.«116870_j17386027614820_1_alg».proof.Proof.Gen.Kernel.Launch
import proofs.«116870_j17386027614820_1_alg».proof.Proof.Gen.Kernel.Points
import proofs.«116870_j17386027614820_1_alg».proof.Proof.Gen.Kernel.Frame
import proofs.«116870_j17386027614820_1_alg».proof.Proof.Gen.KernelIdeal
import proofs.«116870_j17386027614820_1_alg».proof.Proof.Gen.KernelIdeal.Skeleton
import proofs.«116870_j17386027614820_1_alg».proof.Proof.Gen.KernelIdeal.Launch
import proofs.«116870_j17386027614820_1_alg».proof.Proof.Gen.KernelIdeal.Points
import proofs.«116870_j17386027614820_1_alg».proof.Proof.Gen.KernelIdeal.Frame
import proofs.«116870_j17386027614820_1_alg».proof.Proof.Gen.ReferenceIdeal
import proofs.«116870_j17386027614820_1_alg».proof.Proof.Gen.Pre_finite_inputs
import proofs.«116870_j17386027614820_1_alg».proof.Proof.Gen.ReferenceIdeal.Run
import proofs.«116870_j17386027614820_1_alg».proof.Proof.Gen.ReferenceIdeal.Read
import proofs.«116870_j17386027614820_1_alg».proof.Proof.GramRun
import proofs.«116870_j17386027614820_1_alg».proof.Proof.GramRef
import Idealize.ShloMosaic.Adequacy
import Idealize.ShloMosaic.Init

noncomputable section

namespace Cert.Proof

open Idealize.ShloMosaic Idealize.SL.Sem

/-- The word-level kernel terminates, faults nowhere and leaves its arguments as they were. -/
theorem frame_kernel : Cert.frame_Kernel := fun m ρ _ => Cert.Kernel.Gen.frame m ρ
/-- So does its idealization. -/
theorem frame_kernel_ideal : Cert.frame_KernelIdeal := fun m ρ _ => Cert.KernelIdeal.Gen.frame m ρ
/-- So does the reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the embeddings and the labels, the kernel's result and the reference's are the same
    scalar of the same three Gram arrays. -/
theorem algebraic : Cert.algebraic_KernelIdeal_ReferenceIdeal := by
  intro m ρ m' ρ' _ hagree
  refine ⟨fun c => Cert.KernelIdeal.Gram.result m c, Cert.KernelIdeal.Gram.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.KernelIdeal.Gram.ref_tail, Cert.ReferenceIdeal.Gram.vv_eq,
    Cert.ReferenceIdeal.Gram.vy_eq, Cert.ReferenceIdeal.Gram.yy_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
